-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x325x3x64 : Shape := ⟨4, ![64, 325, 3, 64]⟩
abbrev S64x325x1024 : Shape := ⟨3, ![64, 325, 1024]⟩
abbrev S1216x1024 : Shape := ⟨2, ![1216, 1024]⟩
abbrev S1024 : Shape := ⟨1, ![1024]⟩
abbrev S_ : Shape := ⟨0, ![]⟩

class Facts : Prop where
  bcast_S_S64x325x3x64 : S_.BroadcastsInDim S64x325x3x64 (![] : Fin 0 → Fin S64x325x3x64.rank)
  reducesTo_S64x325x3x64_S_d0_1_2_3 : S64x325x3x64.ReducesTo [0, 1, 2, 3] S_
  h_S_ : 0 < S_.numel
  bcast_S_S64x325x1024 : S_.BroadcastsInDim S64x325x1024 (![] : Fin 0 → Fin S64x325x1024.rank)
  reducesTo_S64x325x1024_S_d0_1_2 : S64x325x1024.ReducesTo [0, 1, 2] S_
  bcast_S_S1216x1024 : S_.BroadcastsInDim S1216x1024 (![] : Fin 0 → Fin S1216x1024.rank)
  reducesTo_S1216x1024_S_d0_1 : S1216x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1216x1024 .f32) (main_arg5 : FVec F S1024 .f32) (main_arg6 : FVec F S1216x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1216x1024 .f32 := Host.absf main_arg4
  let main_cst_6 : FVec F S_ .f32 := constant S_ .f32 0x7F800000#32
  let main_v20 : FVec F S1216x1024 .f32 := broadcastInDim S1216x1024 ![] bcast_S_S1216x1024 main_cst_6
  let main_v21 : IVec S1216x1024 1 := cmpf .olt main_v19 main_v20
  let main_c_7 : IVec S_ 1 := constantI S_ 1 1#1
  let main_v22 : IVec S_ 1 := (fun x v => Host.reduce IntOp.andi x v reducesTo_S1216x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1216x1024 .f32 := Host.absf main_arg6
  let main_cst_10 : FVec F S_ .f32 := constant S_ .f32 0x7F800000#32
  let main_v30 : FVec F S1216x1024 .f32 := broadcastInDim S1216x1024 ![] bcast_S_S1216x1024 main_cst_10
  let main_v31 : IVec S1216x1024 1 := cmpf .olt main_v29 main_v30
  let main_c_11 : IVec S_ 1 := constantI S_ 1 1#1
  let main_v32 : IVec S_ 1 := (fun x v => Host.reduce IntOp.andi x v reducesTo_S1216x1024_S_d0_1 h_S_) main_v31 main_c_11
  let main_v33 : IVec S_ 1 := andi main_v28 main_v32
  fn_part2 (F := F) main_arg7 main_v33

def fn {F : FTy → Type} [FloatOps F] (main_arg0 : FVec F S64x325x3x64 .f32) (main_arg1 : FVec F S64x325x1024 .f32) (main_arg2 : FVec F S1216x1024 .f32) (main_arg3 : FVec F S1024 .f32) (main_arg4 : FVec F S1216x1024 .f32) (main_arg5 : FVec F S1024 .f32) (main_arg6 : FVec F S1216x1024 .f32) (main_arg7 : FVec F S1024 .f32) : IVec S_ 1 :=
  let main_v0 : FVec F S64x325x3x64 .f32 := Host.absf main_arg0
  let main_cst : FVec F S_ .f32 := constant S_ .f32 0x7F800000#32
  let main_v1 : FVec F S64x325x3x64 .f32 := broadcastInDim S64x325x3x64 ![] bcast_S_S64x325x3x64 main_cst
  let main_v2 : IVec S64x325x3x64 1 := cmpf .olt main_v0 main_v1
  let main_c : IVec S_ 1 := constantI S_ 1 1#1
  let main_v3 : IVec S_ 1 := (fun x v => Host.reduce IntOp.andi x v reducesTo_S64x325x3x64_S_d0_1_2_3 h_S_) main_v2 main_c
  let main_v4 : FVec F S64x325x1024 .f32 := Host.absf main_arg1
  let main_cst_0 : FVec F S_ .f32 := constant S_ .f32 0x7F800000#32
  let main_v5 : FVec F S64x325x1024 .f32 := broadcastInDim S64x325x1024 ![] bcast_S_S64x325x1024 main_cst_0
  let main_v6 : IVec S64x325x1024 1 := cmpf .olt main_v4 main_v5
  let main_c_1 : IVec S_ 1 := constantI S_ 1 1#1
  let main_v7 : IVec S_ 1 := (fun x v => Host.reduce IntOp.andi x v reducesTo_S64x325x1024_S_d0_1_2 h_S_) main_v6 main_c_1
  let main_v8 : IVec S_ 1 := andi main_v3 main_v7
  let main_v9 : FVec F S1216x1024 .f32 := Host.absf main_arg2
  let main_cst_2 : FVec F S_ .f32 := constant S_ .f32 0x7F800000#32
  let main_v10 : FVec F S1216x1024 .f32 := broadcastInDim S1216x1024 ![] bcast_S_S1216x1024 main_cst_2
  let main_v11 : IVec S1216x1024 1 := cmpf .olt main_v9 main_v10
  let main_c_3 : IVec S_ 1 := constantI S_ 1 1#1
  let main_v12 : IVec S_ 1 := (fun x v => Host.reduce IntOp.andi x v reducesTo_S1216x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S64x325x3x64 : Shape := ⟨4, ![64, 325, 3, 64]⟩
abbrev S64x325x1024 : Shape := ⟨3, ![64, 325, 1024]⟩
abbrev S1216x1024 : Shape := ⟨2, ![1216, 1024]⟩
abbrev S1024 : Shape := ⟨1, ![1024]⟩
abbrev S20800x192 : Shape := ⟨2, ![20800, 192]⟩
abbrev S20800x1024 : Shape := ⟨2, ![20800, 1024]⟩
abbrev S192x1024 : Shape := ⟨2, ![192, 1024]⟩
abbrev S1024x1024 : Shape := ⟨2, ![1024, 1024]⟩
abbrev S192x2048 : Shape := ⟨2, ![192, 2048]⟩
abbrev S1024x2048 : Shape := ⟨2, ![1024, 2048]⟩
abbrev S2048 : Shape := ⟨1, ![2048]⟩
abbrev S1x2048 : Shape := ⟨2, ![1, 2048]⟩
abbrev S1x1024 : Shape := ⟨2, ![1, 1024]⟩
abbrev S512x192 : Shape := ⟨2, ![512, 192]⟩
abbrev S512x1024 : Shape := ⟨2, ![512, 1024]⟩
abbrev S512x2048 : Shape := ⟨2, ![512, 2048]⟩

abbrev nBuf : Space → Nat
  | .hbm => 28
  | .vmem => 12
  | .smem => 0
  | _ => 0

abbrev bufTy : (tb : Table) → Fin (tcTables nBuf tb) → BufTy
  | .hbm, ⟨0, _⟩ => ⟨S64x325x3x64, .f32⟩
  | .hbm, ⟨1, _⟩ => ⟨S64x325x1024, .f32⟩
  | .hbm, ⟨2, _⟩ => ⟨S1216x1024, .f32⟩
  | .hbm, ⟨3, _⟩ => ⟨S1024, .f32⟩
  | .hbm, ⟨4, _⟩ => ⟨S1216x1024, .f32⟩
  | .hbm, ⟨5, _⟩ => ⟨S1024, .f32⟩
  | .hbm, ⟨6, _⟩ => ⟨S1216x1024, .f32⟩
  | .hbm, ⟨7, _⟩ => ⟨S1024, .f32⟩
  | .hbm, ⟨8, _⟩ => ⟨S20800x192, .f32⟩
  | .hbm, ⟨9, _⟩ => ⟨S20800x192, .bf16⟩
  | .hbm, ⟨10, _⟩ => ⟨S20800x1024, .f32⟩
  | .hbm, ⟨11, _⟩ => ⟨S192x1024, .f32⟩
  | .hbm, ⟨12, _⟩ => ⟨S1024x1024, .f32⟩
  | .hbm, ⟨13, _⟩ => ⟨S192x1024, .f32⟩
  | .hbm, ⟨14, _⟩ => ⟨S1024x1024, .f32⟩
  | .hbm, ⟨15, _⟩ => ⟨S192x1024, .f32⟩
  | .hbm, ⟨16, _⟩ => ⟨S192x1024, .bf16⟩
  | .hbm, ⟨17, _⟩ => ⟨S1024x1024, .f32⟩
  | .hbm, ⟨18, _⟩ => ⟨S1024x1024, .bf16⟩
  | .hbm, ⟨19, _⟩ => ⟨S192x2048, .f32⟩
  | .hbm, ⟨20, _⟩ => ⟨S192x2048, .bf16⟩
  | .hbm, ⟨21, _⟩ => ⟨S1024x2048, .f32⟩
  | .hbm, ⟨22, _⟩ => ⟨S1024x2048, .bf16⟩
  | .hbm, ⟨23, _⟩ => ⟨S2048, .f32⟩
  | .hbm, ⟨24, _⟩ => ⟨S1x2048, .f32⟩
  | .hbm, ⟨25, _⟩ => ⟨S1x1024, .f32⟩
  | .hbm, ⟨26, _⟩ => ⟨S20800x1024, .f32⟩
  | .hbm, ⟨27, _⟩ => ⟨S64x325x1024, .f32⟩
  | .local _ .vmem, ⟨0, _⟩ => ⟨S512x192, .bf16⟩
  | .local _ .vmem, ⟨1, _⟩ => ⟨S512x192, .bf16⟩
  | .local _ .vmem, ⟨2, _⟩ => ⟨S512x1024, .f32⟩
  | .local _ .vmem, ⟨3, _⟩ => ⟨S512x1024, .f32⟩
  | .local _ .vmem, ⟨4, _⟩ => ⟨S192x2048, .bf16⟩
  | .local _ .vmem, ⟨5, _⟩ => ⟨S1024x2048, .bf16⟩
  | .local _ .vmem, ⟨6, _⟩ => ⟨S1x2048, .f32⟩
  | .local _ .vmem, ⟨7, _⟩ => ⟨S192x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S64x325x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x325x3x64_S20800x192 : S64x325x3x64.ShapeCasts S20800x192
  bitsLt_bf16_f32 : FTy.bits .bf16 < FTy.bits .f32
  shapeCasts_S64x325x1024_S20800x1024 : S64x325x1024.ShapeCasts S20800x1024
  slices_S1216x1024_S192x1024_0_0 : S1216x1024.Slices ![0, 0] S192x1024
  slices_S1216x1024_S1024x1024_192_0 : S1216x1024.Slices ![192, 0] S1024x1024
  concatenates_S192x1024_S192x1024_S192x2048_d1 : Shape.Concatenates [S192x1024, S192x1024] S192x2048 1
  concatenates_S1024x1024_S1024x1024_S1024x2048_d1 : Shape.Concatenates [S1024x1024, S1024x1024] S1024x2048 1
  concatenates_S1024_S1024_S2048_d0 : Shape.Concatenates [S1024, S1024] S2048 0
  shapeCasts_S2048_S1x2048 : S2048.ShapeCasts S1x2048
  shapeCasts_S1024_S1x1024 : S1024.ShapeCasts S1x1024
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S192x2048_S192x2048_0_0 : ∀ a, (![0, 0] : Fin 2 → Nat) a + S192x2048.size a ≤ S192x2048.size a
  h_S192x2048 : 0 < S192x2048.numel
  shapeCasts_S192x2048_S192x2048 : S192x2048.ShapeCasts S192x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S192x1024_S192x1024_0_0 : ∀ a, (![0, 0] : Fin 2 → Nat) a + S192x1024.size a ≤ S192x1024.size a
  h_S192x1024 : 0 < S192x1024.numel
  shapeCasts_S192x1024_S192x1024 : S192x1024.ShapeCasts S192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S20800x1024_S64x325x1024 : S20800x1024.ShapeCasts S64x325x1024
  dot_S512x192_S192x2048_S512x2048_1_0_0_1_n_n_wf : DotDims.WF S512x192 S192x2048 S512x2048 [1] [0] [0] [1] [] []
  dot_S512x1024_S1024x2048_S512x2048_1_0_0_1_n_n_wf : DotDims.WF S512x1024 S1024x2048 S512x2048 [1] [0] [0] [1] [] []
  dot_S512x192_S192x1024_S512x1024_1_0_0_1_n_n_wf : DotDims.WF S512x192 S192x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x192.size a < S20800x192.size a
  hwx0_0 : ∀ i : grid0.Coords, EltTy.bits .bf16 = 32 ∨ (Rect.unit (s := S20800x192) (fun a => cc0_transform_0 i a * S512x192.size a) (fun a => (Pipeline.Clip.of (cc0_transform_0 i a) (S512x192.size a) (S20800x192.size a)).extent (S512x192.size a)) fun a => Pipeline.Clip.inb (Pipeline.Clip.ok_of (hstart0_0 i a))).WholeWords (EltTy.packing .bf16)
  hwxs0_0 : ∀ i : grid0.Coords, EltTy.bits .bf16 = 32 ∨ (Rect.unit (s := S512x192) (fun _ => 0) (fun a => (Pipeline.Clip.of (cc0_transform_0 i a) (S512x192.size a) (S20800x192.size a)).extent (S512x192.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x1024.size a < S20800x1024.size a
  hwx0_1 : ∀ i : grid0.Coords, EltTy.bits .f32 = 32 ∨ (Rect.unit (s := S20800x1024) (fun a => cc0_transform_1 i a * S512x1024.size a) (fun a => (Pipeline.Clip.of (cc0_transform_1 i a) (S512x1024.size a) (S20800x1024.size a)).extent (S512x1024.size a)) fun a => Pipeline.Clip.inb (Pipeline.Clip.ok_of (hstart0_1 i a))).WholeWords (EltTy.packing .f32)
  hwxs0_1 : ∀ i : grid0.Coords, EltTy.bits .f32 = 32 ∨ (Rect.unit (s := S512x1024) (fun _ => 0) (fun a => (Pipeline.Clip.of (cc0_transform_1 i a) (S512x1024.size a) (S20800x1024.size a)).extent (S512x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x2048.size a ≤ S192x2048.size a
  hwx0_2 : ∀ i : grid0.Coords, EltTy.bits .bf16 = 32 ∨ (Rect.block (s := S192x2048) S192x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x1024.size a ≤ S192x1024.size a
  hwx0_5 : ∀ i : grid0.Coords, EltTy.bits .bf16 = 32 ∨ (Rect.block (s := S192x1024) S192x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S512x1024.size a < S20800x1024.size a
  hwx0_8 : ∀ i : grid0.Coords, EltTy.bits .f32 = 32 ∨ (Rect.unit (s := S20800x1024) (fun a => cc0_transform_8 i a * S512x1024.size a) (fun a => (Pipeline.Clip.of (cc0_transform_8 i a) (S512x1024.size a) (S20800x1024.size a)).extent (S512x1024.size a)) fun a => Pipeline.Clip.inb (Pipeline.Clip.ok_of (hstart0_8 i a))).WholeWords (EltTy.packing .f32)
  hwxs0_8 : ∀ i : grid0.Coords, EltTy.bits .f32 = 32 ∨ (Rect.unit (s := S512x1024) (fun _ => 0) (fun a => (Pipeline.Clip.of (cc0_transform_8 i a) (S512x1024.size a) (S20800x1024.size a)).extent (S512x1024.size a)) fun a => (Nat.zero_add _).trans_le (Pipeline.Clip.extent_le (Pipeline.Clip.ok_of (hstart0_8 i a)))).WholeWords (EltTy.packing .f32)

variable [Facts₀]

def dot_S512x192_S192x2048_S512x2048_1_0_0_1_n_n : DotDims S512x192 S192x2048 S512x2048 where
  lhsContracting := [1]
  rhsContracting := [0]
  lhsNonContracting := [0]
  rhsNonContracting := [1]
  lhsBatch := []
  rhsBatch := []
  wf := dot_S512x192_S192x2048_S512x2048_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x192_S192x1024_S512x1024_1_0_0_1_n_n : DotDims S512x192 S192x1024 S512x1024 where
  lhsContracting := [1]
  rhsContracting := [0]
  lhsNonContracting := [0]
  rhsNonContracting := [1]
  lhsBatch := []
  rhsBatch := []
  wf := dot_S512x192_S192x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpecClip (Memref.whole main_v1) S512x192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v2) S512x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v12) S192x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S192x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v18) S512x1024.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x325x3x64 : Shape := ⟨4, ![64, 325, 3, 64]⟩
abbrev S64x325x1024 : Shape := ⟨3, ![64, 325, 1024]⟩
abbrev S1216x1024 : Shape := ⟨2, ![1216, 1024]⟩
abbrev S1024 : Shape := ⟨1, ![1024]⟩
abbrev S64x325x192 : Shape := ⟨3, ![64, 325, 192]⟩
abbrev S64x325x1216 : Shape := ⟨3, ![64, 325, 1216]⟩
abbrev S1x1x1024 : Shape := ⟨3, ![1, 1, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S64x325x3x64, .f32⟩
  | .hbm, ⟨1, _⟩ => ⟨S64x325x1024, .f32⟩
  | .hbm, ⟨2, _⟩ => ⟨S1216x1024, .f32⟩
  | .hbm, ⟨3, _⟩ => ⟨S1024, .f32⟩
  | .hbm, ⟨4, _⟩ => ⟨S1216x1024, .f32⟩
  | .hbm, ⟨5, _⟩ => ⟨S1024, .f32⟩
  | .hbm, ⟨6, _⟩ => ⟨S1216x1024, .f32⟩
  | .hbm, ⟨7, _⟩ => ⟨S1024, .f32⟩
  | .hbm, ⟨8, _⟩ => ⟨S64x325x192, .f32⟩
  | .hbm, ⟨9, _⟩ => ⟨S64x325x1216, .f32⟩
  | .hbm, ⟨10, _⟩ => ⟨S64x325x1024, .f32⟩
  | .hbm, ⟨11, _⟩ => ⟨S1x1x1024, .f32⟩
  | .hbm, ⟨12, _⟩ => ⟨S64x325x1024, .f32⟩
  | .hbm, ⟨13, _⟩ => ⟨S64x325x1024, .f32⟩
  | .hbm, ⟨14, _⟩ => ⟨S64x325x1024, .f32⟩
  | .hbm, ⟨15, _⟩ => ⟨S64x325x1024, .f32⟩
  | .hbm, ⟨16, _⟩ => ⟨S_, .f32⟩
  | .hbm, ⟨17, _⟩ => ⟨S64x325x1024, .f32⟩
  | .hbm, ⟨18, _⟩ => ⟨S64x325x1024, .f32⟩
  | .hbm, ⟨19, _⟩ => ⟨S_, .f32⟩
  | .hbm, ⟨20, _⟩ => ⟨S64x325x1024, .f32⟩
  | .hbm, ⟨21, _⟩ => ⟨S64x325x1024, .f32⟩
  | .hbm, ⟨22, _⟩ => ⟨S64x325x1024, .f32⟩
  | .hbm, ⟨23, _⟩ => ⟨S1x1x1024, .f32⟩
  | .hbm, ⟨24, _⟩ => ⟨S64x325x1024, .f32⟩
  | .hbm, ⟨25, _⟩ => ⟨S64x325x1024, .f32⟩
  | .hbm, ⟨26, _⟩ => ⟨S64x325x1024, .f32⟩
  | .hbm, ⟨27, _⟩ => ⟨S64x325x1024, .f32⟩
  | .hbm, ⟨28, _⟩ => ⟨S_, .f32⟩
  | .hbm, ⟨29, _⟩ => ⟨S64x325x1024, .f32⟩
  | .hbm, ⟨30, _⟩ => ⟨S64x325x1024, .f32⟩
  | .hbm, ⟨31, _⟩ => ⟨S_, .f32⟩
  | .hbm, ⟨32, _⟩ => ⟨S64x325x1024, .f32⟩
  | .hbm, ⟨33, _⟩ => ⟨S64x325x1024, .f32⟩
  | .hbm, ⟨34, _⟩ => ⟨S64x325x1024, .f32⟩
  | .hbm, ⟨35, _⟩ => ⟨S64x325x1216, .f32⟩
  | .hbm, ⟨36, _⟩ => ⟨S64x325x1024, .f32⟩
  | .hbm, ⟨37, _⟩ => ⟨S1x1x1024, .f32⟩
  | .hbm, ⟨38, _⟩ => ⟨S64x325x1024, .f32⟩
  | .hbm, ⟨39, _⟩ => ⟨S64x325x1024, .f32⟩
  | .hbm, ⟨40, _⟩ => ⟨S64x325x1024, .f32⟩
  | .hbm, ⟨41, _⟩ => ⟨S_, .f32⟩
  | .hbm, ⟨42, _⟩ => ⟨S64x325x1024, .f32⟩
  | .hbm, ⟨43, _⟩ => ⟨S64x325x1024, .f32⟩
  | .hbm, ⟨44, _⟩ => ⟨S64x325x1024, .f32⟩
  | .hbm, ⟨45, _⟩ => ⟨S64x325x1024, .f32⟩
  | .hbm, ⟨46, _⟩ => ⟨S64x325x1024, .f32⟩
  | _, _ => ⟨S64x325x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  shapeCasts_S64x325x3x64_S64x325x192 : S64x325x3x64.ShapeCasts S64x325x192
  concatenates_S64x325x192_S64x325x1024_S64x325x1216_d2 : Shape.Concatenates [S64x325x192, S64x325x1024] S64x325x1216 2
  bcast_S1024_S1x1x1024_2 : S1024.BroadcastsInDim S1x1x1024 (![2] : Fin 1 → Fin S1x1x1024.rank)
  bcast_S1x1x1024_S64x325x1024_0_1_2 : S1x1x1024.BroadcastsInDim S64x325x1024 (![0, 1, 2] : Fin 3 → Fin S64x325x1024.rank)
  bcast_S_S64x325x1024 : S_.BroadcastsInDim S64x325x1024 (![] : Fin 0 → Fin S64x325x1024.rank)
  dot_S64x325x1216_S1216x1024_S64x325x1024_2_0_01_1_n_n_wf : DotDims.WF S64x325x1216 S1216x1024 S64x325x1024 [2] [0] [0, 1] [1] [] []

variable [Facts₀]

def dot_S64x325x1216_S1216x1024_S64x325x1024_2_0_01_1_n_n : DotDims S64x325x1216 S1216x1024 S64x325x1024 where
  lhsContracting := [2]
  rhsContracting := [0]
  lhsNonContracting := [0, 1]
  rhsNonContracting := [1]
  lhsBatch := []
  rhsBatch := []
  wf := dot_S64x325x1216_S1216x1024_S64x325x1024_2_0_01_1_n_n_wf

class Facts : Prop extends Facts₀ where

variable [Facts]
-- ==== Proof.BitsBody.lean ====
/-
  The kernel body as a triple, at any float instance: run on nine whole staging buffers — the eight inputs at
  contents x1 … x8, the output's at anything — it ends with the inputs as they were and the output's buffer
  holding the body's one stored value, the gated update
      (1 - z) * h + z * tanh (x·Wxc + (r * h)·Whc + bc),   [z | r] = logistic (x·Wxzr + h·Whzr + bzr),
  as a function of the eight loaded blocks (named `out0` below).
-/
import proofs.«143251_j19774029431558_2_alg».proof.Proof.Gen.Kernel.Frame
import proofs.«143251_j19774029431558_2_alg».proof.Proof.Gen.Kernel.Skeleton
import Idealize.ShloMosaic.Lib.Pipeline.Frame
import Idealize.ShloMosaic.Lib.Pipeline.FrameSuffix
import Idealize.ShloMosaic.Lib.Exec.Geometry
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A store of a whole block (unit rectangle at zero offsets, the block's own sizes) leaves its payload. -/
theorem read_store_whole {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩)]
  exact View.canon_unit_zero h inb w

/-- A load of a whole block reads the contents. -/
theorem readAt_whole {Val : EltTy → Type} {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

/-- The value the body stores, from the eight blocks it loads: x (rows × 192), h (rows × 1024), the stacked z|r
    weights for x and for h, their stacked bias, the candidate's weights for x and for h, its bias. -/
def out0 (x1 : Vec F S512x192 .bf16) (x2 : Vec F S512x1024 .f32) (x3 : Vec F S192x2048 .bf16)
    (x4 : Vec F S1024x2048 .bf16) (x5 : Vec F S1x2048 .f32) (x6 : Vec F S192x1024 .bf16)
    (x7 : Vec F S1024x1024 .bf16) (x8 : Vec F S1x1024 .f32) : Vec F S512x1024 .f32 :=
  k0_pay1 (k0_pay6 x1 x2 x3 x4 x5) (k0_pay7 x1 x2 x3 x4 x5 x6 x7 x8)

set_option maxHeartbeats 4000000 in
/-- The body's triple on whole staging memrefs. -/
theorem sound_kernel (c : Dev nD) (E : Set ℕ) (i : grid0.Coords)
    (arg1 : Memref sig .tc .vmem S512x192 .bf16) (harg1 : arg1.IsWhole) (arg2 : Memref sig .tc .vmem S512x1024 .f32) (harg2 : arg2.IsWhole)
    (arg3 : Memref sig .tc .vmem S192x2048 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S192x1024 .bf16) (harg6 : arg6.IsWhole)
    (arg7 : Memref sig .tc .vmem S1024x1024 .bf16) (harg7 : arg7.IsWhole) (arg8 : Memref sig .tc .vmem S1x1024 .f32) (harg8 : arg8.IsWhole)
    (arg9 : Memref sig .tc .vmem S512x1024 .f32) (harg9 : arg9.IsWhole)
    (x1 : Vec F S512x192 .bf16) (x2 : Vec F S512x1024 .f32) (x3 : Vec F S192x2048 .bf16)
    (x4 : Vec F S1024x2048 .bf16) (x5 : Vec F S1x2048 .f32) (x6 : Vec F S192x1024 .bf16)
    (x7 : Vec F S1024x1024 .bf16) (x8 : Vec F S1x1024 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (out0 x1 x2 x3 x4 x5 x6 x7 x8)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  have hz : (![0, 0] : Fin 2 → Nat) = fun _ => 0 := funext fun a => by fin_cases a <;> rfl
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  -- the one store is of the whole block: what it leaves is its payload; each load is of a whole block: it reads the contents
  refine (read_store_whole (S := S512x1024) arg9.view f9 hz inb_S512x1024_S512x1024_0_0 _).trans ?_
  rw [readAt_whole (S := S512x192) arg1.view f1 hz inb_S512x192_S512x192_0_0,
    readAt_whole (S := S512x1024) arg2.view f2 hz inb_S512x1024_S512x1024_0_0,
    readAt_whole (S := S192x2048) arg3.view f3 hz inb_S192x2048_S192x2048_0_0,
    readAt_whole (S := S1024x2048) arg4.view f4 hz inb_S1024x2048_S1024x2048_0_0,
    readAt_whole (S := S1x2048) arg5.view f5 hz inb_S1x2048_S1x2048_0_0,
    readAt_whole (S := S192x1024) arg6.view f6 hz inb_S192x1024_S192x1024_0_0,
    readAt_whole (S := S1024x1024) arg7.view f7 hz inb_S1024x1024_S1024x1024_0_0,
    readAt_whole (S := S1x1024) arg8.view f8 hz inb_S1x1024_S1x1024_0_0]
  rfl

end Cert.Kernel.Hand

end
-- ==== Proof.BitsData.lean ====
/-
  The pipeline's proof data and the body's obligation at every grid point.

  The grid has 41 points; point t stages rows 512·t … 512·t + 511 of x and of h and writes the same rows of the
  result back. The arrays have 20800 = 40·512 + 320 rows, so at the last point only 320 rows are moved and the rest
  of each of those three staging buffers holds words nothing names. After the body an input's buffer holds its
  block (padded out past the array's end by a fixed filler), the six resident operands' buffers their whole
  arrays, and the result's buffer the body's value computed from those. The body is handed x's and h's buffers with
  an ARBITRARY tail; what it leaves in the result's buffer on the rows that are moved does not depend on that tail
  when the body's value is row-local (row p of the value reads only row p of x and of h): the hypothesis
  `RowLocal`. A second form of the obligation says nothing of the result's buffer at all.
-/
import proofs.«143251_j19774029431558_2_alg».proof.Proof.BitsBody
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Row p of the body's value reads only row p of its first two operands. -/
def RowLocal (F : FTy → Type) [FloatOps F] : Prop :=
  ∀ (x1 x1' : Vec F S512x192 .bf16) (x2 x2' : Vec F S512x1024 .f32) (x3 : Vec F S192x2048 .bf16)
    (x4 : Vec F S1024x2048 .bf16) (x5 : Vec F S1x2048 .f32) (x6 : Vec F S192x1024 .bf16)
    (x7 : Vec F S1024x1024 .bf16) (x8 : Vec F S1x1024 .f32) (p : Fin 512),
    (∀ q : Fin 192, x1 (ix2 p q) = x1' (ix2 p q)) → (∀ q : Fin 1024, x2 (ix2 p q) = x2' (ix2 p q)) →
    ∀ j : Fin 1024, out0 x1 x2 x3 x4 x5 x6 x7 x8 (ix2 p j) = out0 x1' x2' x3 x4 x5 x6 x7 x8 (ix2 p j)

/-- Two fills of one block agree on the part the transfer moves, whatever was there before. -/
theorem fill_eq_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

variable (m : (ℓ : Loc nD τ sig) → Buf (Elt F) ℓ) (ρ : Dev nD → PrngReg)

/-- x's block at point t, padded past the array's end; -/
def xblk (c : Dev nD) (t : Fin cfg0.N) : S512x192.Idx → Elt F .bf16 :=
  win0_0.fill (grid0.coords t) (fun _ => Scalar.ofBits .bf16 0#16) (iblk m c 0 t)
/-- h's likewise. -/
def hblk (c : Dev nD) (t : Fin cfg0.N) : S512x1024.Idx → Elt F .f32 :=
  win0_1.fill (grid0.coords t) (fun _ => Scalar.ofBits .f32 0#32) (iblk m c 1 t)

/-- The result window is the one a frame certificate forgets. -/
def forgets0 : Fin 9 → Bool := fun w => w.val == 8

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => hblk m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0 (xblk m c t) (hblk m c t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = xblk m c t := by dsimp only [dats]
theorem after0_1 (c : Dev nD) (t : Fin cfg0.N) : (dats m 0 c).after 1 t = hblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0 (xblk m c t) (hblk m c t) (iblk m c 2 t) (iblk m c 3 t) (iblk m c 4 t) (iblk m c 5 t) (iblk m c 6 t) (iblk m c 7 t) := by
  dsimp only [dats]

/-- x and h are fetched at every point: the body finds the block on the moved rows and anything (d) below them. -/
theorem before0_0 (c : Dev nD) (t : Fin cfg0.N) (d) :
    (dats m 0 c).before 0 t d = win0_0.fill (grid0.coords t) d (iblk m c 0 t) := by
  rw [Dat.before_fetched _ 0 t (fetch0_0 t)]; rfl
theorem before0_1 (c : Dev nD) (t : Fin cfg0.N) (d) :
    (dats m 0 c).before 1 t d = win0_1.fill (grid0.coords t) d (iblk m c 1 t) := by
  rw [Dat.before_fetched _ 1 t (fetch0_1 t)]; rfl
/-- The resident operands' buffers hold their arrays at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The three row-blocked windows move the same rows at every point, and all of each row. -/
theorem xsize_rows : ∀ t : Fin grid0.N,
    win0_0.xsize (grid0.coords t) 0 = win0_8.xsize (grid0.coords t) 0 ∧ win0_1.xsize (grid0.coords t) 0 = win0_8.xsize (grid0.coords t) 0
    ∧ win0_0.xsize (grid0.coords t) 1 = 192 ∧ win0_1.xsize (grid0.coords t) 1 = 1024 := by decide +kernel

/-! ## The body's obligation at a generic point -/

/-- What the pipeline hands the body at point t. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it takes back: the three row-blocked windows stated on the rows that are moved only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare ((cfg0.win 8).fill (cfg0.grid.coords t) d ((cfg0.win 8).cut (cfg0.grid.coords t) ((dats m 0 c).after 8 t)))))

/-- On a row the result window moves, the body's value from x's and h's buffers with ANY tails is its value from the
    padded blocks: that row of x and of h is a moved row of their windows too, where both fills hold the block. -/
theorem cut_out0 (hloc : RowLocal F) (c : Dev nD) (t : Fin cfg0.N) (d0 : S512x192.Idx → Elt F .bf16) (d1 : S512x1024.Idx → Elt F .f32) :
    win0_8.cut (grid0.coords t) (out0 (win0_0.fill (grid0.coords t) d0 (iblk m c 0 t)) (win0_1.fill (grid0.coords t) d1 (iblk m c 1 t))
        (iblk m c 2 t) (iblk m c 3 t) (iblk m c 4 t) (iblk m c 5 t) (iblk m c 6 t) (iblk m c 7 t))
      = win0_8.cut (grid0.coords t) (out0 (xblk m c t) (hblk m c t) (iblk m c 2 t) (iblk m c 3 t) (iblk m c 4 t) (iblk m c 5 t) (iblk m c 6 t) (iblk m c 7 t)) := by
  funext j
  obtain ⟨h00, h10, h01, h11⟩ := xsize_rows t
  have hj0 : ((win0_8.xinj (grid0.coords t) j) 0).val < win0_8.xsize (grid0.coords t) 0 := (j 0).isLt
  show out0 _ _ _ _ _ _ _ _ (win0_8.xinj (grid0.coords t) j) = out0 _ _ _ _ _ _ _ _ (win0_8.xinj (grid0.coords t) j)
  rw [eq_ix2 (win0_8.xinj (grid0.coords t) j)]
  refine hloc _ _ _ _ _ _ _ _ _ _ _ (fun q => ?_) (fun q => ?_) _
  · refine fill_eq_of_moved win0_0 (grid0.coords t) _ _ _ _ ((win0_0.moved_iff _ _).mpr fun a => ?_)
    match a with
    | ⟨0, _⟩ => show ((win0_8.xinj (grid0.coords t) j) 0).val < win0_0.xsize (grid0.coords t) 0; omega
    | ⟨1, _⟩ => show q.val < win0_0.xsize (grid0.coords t) 1; have := q.isLt; omega
  · refine fill_eq_of_moved win0_1 (grid0.coords t) _ _ _ _ ((win0_1.moved_iff _ _).mpr fun a => ?_)
    match a with
    | ⟨0, _⟩ => show ((win0_8.xinj (grid0.coords t) j) 0).val < win0_1.xsize (grid0.coords t) 0; omega
    | ⟨1, _⟩ => show q.val < win0_1.xsize (grid0.coords t) 1; have := q.isLt; omega

/-- The body at any point, naming what the result's buffer holds on the moved rows (given row-locality). -/
theorem sound_body (hloc : RowLocal F) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4, before0_5 m c t d5,
    before0_6 m c t d6, before0_7 m c t d7]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_0.fill (grid0.coords t) d0 (iblk m c 0 t)) (win0_1.fill (grid0.coords t) d1 (iblk m c 1 t)) (iblk m c 2 t) (iblk m c 3 t)
    (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · iexists d0
    rw [after0_0 m c t]
    change _ ⊢ owns (c : Thread nD τ) (st0_0 t) fullShare (win0_0.fill (grid0.coords t) d0 (win0_0.cut (grid0.coords t) (xblk m c t)))
    rw [show win0_0.cut (grid0.coords t) (xblk m c t) = iblk m c 0 t from win0_0.cut_fill _ _ _]
    try iexact H0
  isplitl [H1]
  · iexists d1
    rw [after0_1 m c t]
    change _ ⊢ owns (c : Thread nD τ) (st0_1 t) fullShare (win0_1.fill (grid0.coords t) d1 (win0_1.cut (grid0.coords t) (hblk m c t)))
    rw [show win0_1.cut (grid0.coords t) (hblk m c t) = iblk m c 1 t from win0_1.cut_fill _ _ _]
    try iexact H1
  isplitl [H2]
  · rw [after0_2 m c t]; iexact H2
  isplitl [H3]
  · rw [after0_3 m c t]; iexact H3
  isplitl [H4]
  · rw [after0_4 m c t]; iexact H4
  isplitl [H5]
  · rw [after0_5 m c t]; iexact H5
  isplitl [H6]
  · rw [after0_6 m c t]; iexact H6
  isplitl [H7]
  · rw [after0_7 m c t]; iexact H7
  iexists _
  rw [after0_8 m c t]
  change _ ⊢ owns (c : Thread nD τ) (st0_8 t) fullShare (win0_8.fill (grid0.coords t) _ (win0_8.cut (grid0.coords t) (out0 (xblk m c t) (hblk m c t) (iblk m c 2 t) (iblk m c 3 t) (iblk m c 4 t) (iblk m c 5 t) (iblk m c 6 t) (iblk m c 7 t))))
  rw [win0_8.fill_congr_cut (grid0.coords t) (cut_out0 m hloc c t d0 d1)]
  try iexact H8

/-- The library's loose body obligation, at every point. -/
theorem body_obligation (hloc : RowLocal F) (c : Dev nD) :
    BodyObligationLoose (dats (F := F) m 0 c) (defs₀ (F := F)) Variants.none () Set.univ := fun t => by
  rw [bigSep_W0, bigSep_W0]
  exact sound_body m hloc c t

/-! ## The same, saying nothing of the result's buffer -/

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4, before0_5 m c t d5,
    before0_6 m c t d6, before0_7 m c t d7]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_0.fill (grid0.coords t) d0 (iblk m c 0 t)) (win0_1.fill (grid0.coords t) d1 (iblk m c 1 t)) (iblk m c 2 t) (iblk m c 3 t)
    (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · iexists d0
    rw [after0_0 m c t]
    change _ ⊢ owns (c : Thread nD τ) (st0_0 t) fullShare (win0_0.fill (grid0.coords t) d0 (win0_0.cut (grid0.coords t) (xblk m c t)))
    rw [show win0_0.cut (grid0.coords t) (xblk m c t) = iblk m c 0 t from win0_0.cut_fill _ _ _]
    try iexact H0
  isplitl [H1]
  · iexists d1
    rw [after0_1 m c t]
    change _ ⊢ owns (c : Thread nD τ) (st0_1 t) fullShare (win0_1.fill (grid0.coords t) d1 (win0_1.cut (grid0.coords t) (hblk m c t)))
    rw [show win0_1.cut (grid0.coords t) (hblk m c t) = iblk m c 1 t from win0_1.cut_fill _ _ _]
    try iexact H1
  isplitl [H2]
  · rw [after0_2 m c t]; iexact H2
  isplitl [H3]
  · rw [after0_3 m c t]; iexact H3
  isplitl [H4]
  · rw [after0_4 m c t]; iexact H4
  isplitl [H5]
  · rw [after0_5 m c t]; iexact H5
  isplitl [H6]
  · rw [after0_6 m c t]; iexact H6
  isplitl [H7]
  · rw [after0_7 m c t]; iexact H7
  iexists _; iexact H8

theorem body_obligationF (c : Dev nD) :
    BodyObligationLoose (dats (F := F) m 0 c) (defs₀ (F := F)) Variants.none () Set.univ forgets0 := fun t => by
  rw [bigSep_W0, bigSep_W0]
  exact sound_bodyF m c t

end Cert.Kernel.Hand

end
-- ==== Proof.BitsRun.lean ====
/-
  The frame of the kernel program read at machine words. There the matrix product is a function of its whole
  operands, so what the body leaves in the result's buffer may depend on the unnamed tail of a clipped block: the run
  says nothing of the result array, nor of the buffer the host operation after the region computes from it, and
  states every other buffer — the eight arguments among them — unchanged.
-/
import proofs.«143251_j19774029431558_2_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The buffer the host operation after the region writes. -/
def T0 : Finset (Ref sig .tc) := {main_v19}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
theorem run_mainF : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligationF m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the program runs and leaves its eight arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧      r.2.mem ((c.tc : Thread nD τ).loc main_arg1) = m ((c.tc : Thread nD τ).loc main_arg1)
      ∧      r.2.mem ((c.tc : Thread nD τ).loc main_arg2) = m ((c.tc : Thread nD τ).loc main_arg2)
      ∧      r.2.mem ((c.tc : Thread nD τ).loc main_arg3) = m ((c.tc : Thread nD τ).loc main_arg3)
      ∧      r.2.mem ((c.tc : Thread nD τ).loc main_arg4) = m ((c.tc : Thread nD τ).loc main_arg4)
      ∧      r.2.mem ((c.tc : Thread nD τ).loc main_arg5) = m ((c.tc : Thread nD τ).loc main_arg5)
      ∧      r.2.mem ((c.tc : Thread nD τ).loc main_arg6) = m ((c.tc : Thread nD τ).loc main_arg6)
      ∧      r.2.mem ((c.tc : Thread nD τ).loc main_arg7) = m ((c.tc : Thread nD τ).loc main_arg7)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c)⟩) (run_mainF m ρ)

end Cert.Kernel.Hand

end
-- ==== Proof.IdealBody.lean ====
/-
  The kernel body as a triple, at any float instance: run on nine whole staging buffers — the eight inputs at
  contents x1 … x8, the output's at anything — it ends with the inputs as they were and the output's buffer
  holding the body's one stored value, the gated update
      (1 - z) * h + z * tanh (x·Wxc + (r * h)·Whc + bc),   [z | r] = logistic (x·Wxzr + h·Whzr + bzr),
  as a function of the eight loaded blocks (named `out0` below).
-/
import proofs.«143251_j19774029431558_2_alg».proof.Proof.Gen.KernelIdeal.Frame
import proofs.«143251_j19774029431558_2_alg».proof.Proof.Gen.KernelIdeal.Skeleton
import Idealize.ShloMosaic.Lib.Pipeline.Frame
import Idealize.ShloMosaic.Lib.Pipeline.FrameSuffix
import Idealize.ShloMosaic.Lib.Exec.Geometry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A store of a whole block (unit rectangle at zero offsets, the block's own sizes) leaves its payload. -/
theorem read_store_whole {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩)]
  exact View.canon_unit_zero h inb w

/-- A load of a whole block reads the contents. -/
theorem readAt_whole {Val : EltTy → Type} {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

/-- The value the body stores, from the eight blocks it loads: x (rows × 192), h (rows × 1024), the stacked z|r
    weights for x and for h, their stacked bias, the candidate's weights for x and for h, its bias. -/
def out0 (x1 : Vec F S512x192 .bf16) (x2 : Vec F S512x1024 .f32) (x3 : Vec F S192x2048 .bf16)
    (x4 : Vec F S1024x2048 .bf16) (x5 : Vec F S1x2048 .f32) (x6 : Vec F S192x1024 .bf16)
    (x7 : Vec F S1024x1024 .bf16) (x8 : Vec F S1x1024 .f32) : Vec F S512x1024 .f32 :=
  k0_pay1 (k0_pay6 x1 x2 x3 x4 x5) (k0_pay7 x1 x2 x3 x4 x5 x6 x7 x8)

set_option maxHeartbeats 4000000 in
/-- The body's triple on whole staging memrefs. -/
theorem sound_kernel (c : Dev nD) (E : Set ℕ) (i : grid0.Coords)
    (arg1 : Memref sig .tc .vmem S512x192 .bf16) (harg1 : arg1.IsWhole) (arg2 : Memref sig .tc .vmem S512x1024 .f32) (harg2 : arg2.IsWhole)
    (arg3 : Memref sig .tc .vmem S192x2048 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S192x1024 .bf16) (harg6 : arg6.IsWhole)
    (arg7 : Memref sig .tc .vmem S1024x1024 .bf16) (harg7 : arg7.IsWhole) (arg8 : Memref sig .tc .vmem S1x1024 .f32) (harg8 : arg8.IsWhole)
    (arg9 : Memref sig .tc .vmem S512x1024 .f32) (harg9 : arg9.IsWhole)
    (x1 : Vec F S512x192 .bf16) (x2 : Vec F S512x1024 .f32) (x3 : Vec F S192x2048 .bf16)
    (x4 : Vec F S1024x2048 .bf16) (x5 : Vec F S1x2048 .f32) (x6 : Vec F S192x1024 .bf16)
    (x7 : Vec F S1024x1024 .bf16) (x8 : Vec F S1x1024 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (out0 x1 x2 x3 x4 x5 x6 x7 x8)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  have hz : (![0, 0] : Fin 2 → Nat) = fun _ => 0 := funext fun a => by fin_cases a <;> rfl
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  -- the one store is of the whole block: what it leaves is its payload; each load is of a whole block: it reads the contents
  refine (read_store_whole (S := S512x1024) arg9.view f9 hz inb_S512x1024_S512x1024_0_0 _).trans ?_
  rw [readAt_whole (S := S512x192) arg1.view f1 hz inb_S512x192_S512x192_0_0,
    readAt_whole (S := S512x1024) arg2.view f2 hz inb_S512x1024_S512x1024_0_0,
    readAt_whole (S := S192x2048) arg3.view f3 hz inb_S192x2048_S192x2048_0_0,
    readAt_whole (S := S1024x2048) arg4.view f4 hz inb_S1024x2048_S1024x2048_0_0,
    readAt_whole (S := S1x2048) arg5.view f5 hz inb_S1x2048_S1x2048_0_0,
    readAt_whole (S := S192x1024) arg6.view f6 hz inb_S192x1024_S192x1024_0_0,
    readAt_whole (S := S1024x1024) arg7.view f7 hz inb_S1024x1024_S1024x1024_0_0,
    readAt_whole (S := S1x1024) arg8.view f8 hz inb_S1x1024_S1x1024_0_0]
  rfl

end Cert.KernelIdeal.Hand

end
-- ==== Proof.IdealData.lean ====
/-
  The pipeline's proof data and the body's obligation at every grid point.

  The grid has 41 points; point t stages rows 512·t … 512·t + 511 of x and of h and writes the same rows of the
  result back. The arrays have 20800 = 40·512 + 320 rows, so at the last point only 320 rows are moved and the rest
  of each of those three staging buffers holds words nothing names. After the body an input's buffer holds its
  block (padded out past the array's end by a fixed filler), the six resident operands' buffers their whole
  arrays, and the result's buffer the body's value computed from those. The body is handed x's and h's buffers with
  an ARBITRARY tail; what it leaves in the result's buffer on the rows that are moved does not depend on that tail
  when the body's value is row-local (row p of the value reads only row p of x and of h): the hypothesis
  `RowLocal`. A second form of the obligation says nothing of the result's buffer at all.
-/
import proofs.«143251_j19774029431558_2_alg».proof.Proof.IdealBody
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Row p of the body's value reads only row p of its first two operands. -/
def RowLocal (F : FTy → Type) [FloatOps F] : Prop :=
  ∀ (x1 x1' : Vec F S512x192 .bf16) (x2 x2' : Vec F S512x1024 .f32) (x3 : Vec F S192x2048 .bf16)
    (x4 : Vec F S1024x2048 .bf16) (x5 : Vec F S1x2048 .f32) (x6 : Vec F S192x1024 .bf16)
    (x7 : Vec F S1024x1024 .bf16) (x8 : Vec F S1x1024 .f32) (p : Fin 512),
    (∀ q : Fin 192, x1 (ix2 p q) = x1' (ix2 p q)) → (∀ q : Fin 1024, x2 (ix2 p q) = x2' (ix2 p q)) →
    ∀ j : Fin 1024, out0 x1 x2 x3 x4 x5 x6 x7 x8 (ix2 p j) = out0 x1' x2' x3 x4 x5 x6 x7 x8 (ix2 p j)

/-- Two fills of one block agree on the part the transfer moves, whatever was there before. -/
theorem fill_eq_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

variable (m : (ℓ : Loc nD τ sig) → Buf (Elt F) ℓ) (ρ : Dev nD → PrngReg)

/-- x's block at point t, padded past the array's end; -/
def xblk (c : Dev nD) (t : Fin cfg0.N) : S512x192.Idx → Elt F .bf16 :=
  win0_0.fill (grid0.coords t) (fun _ => Scalar.ofBits .bf16 0#16) (iblk m c 0 t)
/-- h's likewise. -/
def hblk (c : Dev nD) (t : Fin cfg0.N) : S512x1024.Idx → Elt F .f32 :=
  win0_1.fill (grid0.coords t) (fun _ => Scalar.ofBits .f32 0#32) (iblk m c 1 t)

/-- The result window is the one a frame certificate forgets. -/
def forgets0 : Fin 9 → Bool := fun w => w.val == 8

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => hblk m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0 (xblk m c t) (hblk m c t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = xblk m c t := by dsimp only [dats]
theorem after0_1 (c : Dev nD) (t : Fin cfg0.N) : (dats m 0 c).after 1 t = hblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0 (xblk m c t) (hblk m c t) (iblk m c 2 t) (iblk m c 3 t) (iblk m c 4 t) (iblk m c 5 t) (iblk m c 6 t) (iblk m c 7 t) := by
  dsimp only [dats]

/-- x and h are fetched at every point: the body finds the block on the moved rows and anything (d) below them. -/
theorem before0_0 (c : Dev nD) (t : Fin cfg0.N) (d) :
    (dats m 0 c).before 0 t d = win0_0.fill (grid0.coords t) d (iblk m c 0 t) := by
  rw [Dat.before_fetched _ 0 t (fetch0_0 t)]; rfl
theorem before0_1 (c : Dev nD) (t : Fin cfg0.N) (d) :
    (dats m 0 c).before 1 t d = win0_1.fill (grid0.coords t) d (iblk m c 1 t) := by
  rw [Dat.before_fetched _ 1 t (fetch0_1 t)]; rfl
/-- The resident operands' buffers hold their arrays at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The three row-blocked windows move the same rows at every point, and all of each row. -/
theorem xsize_rows : ∀ t : Fin grid0.N,
    win0_0.xsize (grid0.coords t) 0 = win0_8.xsize (grid0.coords t) 0 ∧ win0_1.xsize (grid0.coords t) 0 = win0_8.xsize (grid0.coords t) 0
    ∧ win0_0.xsize (grid0.coords t) 1 = 192 ∧ win0_1.xsize (grid0.coords t) 1 = 1024 := by decide +kernel

/-! ## The body's obligation at a generic point -/

/-- What the pipeline hands the body at point t. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it takes back: the three row-blocked windows stated on the rows that are moved only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare ((cfg0.win 8).fill (cfg0.grid.coords t) d ((cfg0.win 8).cut (cfg0.grid.coords t) ((dats m 0 c).after 8 t)))))

/-- On a row the result window moves, the body's value from x's and h's buffers with ANY tails is its value from the
    padded blocks: that row of x and of h is a moved row of their windows too, where both fills hold the block. -/
theorem cut_out0 (hloc : RowLocal F) (c : Dev nD) (t : Fin cfg0.N) (d0 : S512x192.Idx → Elt F .bf16) (d1 : S512x1024.Idx → Elt F .f32) :
    win0_8.cut (grid0.coords t) (out0 (win0_0.fill (grid0.coords t) d0 (iblk m c 0 t)) (win0_1.fill (grid0.coords t) d1 (iblk m c 1 t))
        (iblk m c 2 t) (iblk m c 3 t) (iblk m c 4 t) (iblk m c 5 t) (iblk m c 6 t) (iblk m c 7 t))
      = win0_8.cut (grid0.coords t) (out0 (xblk m c t) (hblk m c t) (iblk m c 2 t) (iblk m c 3 t) (iblk m c 4 t) (iblk m c 5 t) (iblk m c 6 t) (iblk m c 7 t)) := by
  funext j
  obtain ⟨h00, h10, h01, h11⟩ := xsize_rows t
  have hj0 : ((win0_8.xinj (grid0.coords t) j) 0).val < win0_8.xsize (grid0.coords t) 0 := (j 0).isLt
  show out0 _ _ _ _ _ _ _ _ (win0_8.xinj (grid0.coords t) j) = out0 _ _ _ _ _ _ _ _ (win0_8.xinj (grid0.coords t) j)
  rw [eq_ix2 (win0_8.xinj (grid0.coords t) j)]
  refine hloc _ _ _ _ _ _ _ _ _ _ _ (fun q => ?_) (fun q => ?_) _
  · refine fill_eq_of_moved win0_0 (grid0.coords t) _ _ _ _ ((win0_0.moved_iff _ _).mpr fun a => ?_)
    match a with
    | ⟨0, _⟩ => show ((win0_8.xinj (grid0.coords t) j) 0).val < win0_0.xsize (grid0.coords t) 0; omega
    | ⟨1, _⟩ => show q.val < win0_0.xsize (grid0.coords t) 1; have := q.isLt; omega
  · refine fill_eq_of_moved win0_1 (grid0.coords t) _ _ _ _ ((win0_1.moved_iff _ _).mpr fun a => ?_)
    match a with
    | ⟨0, _⟩ => show ((win0_8.xinj (grid0.coords t) j) 0).val < win0_1.xsize (grid0.coords t) 0; omega
    | ⟨1, _⟩ => show q.val < win0_1.xsize (grid0.coords t) 1; have := q.isLt; omega

/-- The body at any point, naming what the result's buffer holds on the moved rows (given row-locality). -/
theorem sound_body (hloc : RowLocal F) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4, before0_5 m c t d5,
    before0_6 m c t d6, before0_7 m c t d7]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_0.fill (grid0.coords t) d0 (iblk m c 0 t)) (win0_1.fill (grid0.coords t) d1 (iblk m c 1 t)) (iblk m c 2 t) (iblk m c 3 t)
    (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · iexists d0
    rw [after0_0 m c t]
    change _ ⊢ owns (c : Thread nD τ) (st0_0 t) fullShare (win0_0.fill (grid0.coords t) d0 (win0_0.cut (grid0.coords t) (xblk m c t)))
    rw [show win0_0.cut (grid0.coords t) (xblk m c t) = iblk m c 0 t from win0_0.cut_fill _ _ _]
    try iexact H0
  isplitl [H1]
  · iexists d1
    rw [after0_1 m c t]
    change _ ⊢ owns (c : Thread nD τ) (st0_1 t) fullShare (win0_1.fill (grid0.coords t) d1 (win0_1.cut (grid0.coords t) (hblk m c t)))
    rw [show win0_1.cut (grid0.coords t) (hblk m c t) = iblk m c 1 t from win0_1.cut_fill _ _ _]
    try iexact H1
  isplitl [H2]
  · rw [after0_2 m c t]; iexact H2
  isplitl [H3]
  · rw [after0_3 m c t]; iexact H3
  isplitl [H4]
  · rw [after0_4 m c t]; iexact H4
  isplitl [H5]
  · rw [after0_5 m c t]; iexact H5
  isplitl [H6]
  · rw [after0_6 m c t]; iexact H6
  isplitl [H7]
  · rw [after0_7 m c t]; iexact H7
  iexists _
  rw [after0_8 m c t]
  change _ ⊢ owns (c : Thread nD τ) (st0_8 t) fullShare (win0_8.fill (grid0.coords t) _ (win0_8.cut (grid0.coords t) (out0 (xblk m c t) (hblk m c t) (iblk m c 2 t) (iblk m c 3 t) (iblk m c 4 t) (iblk m c 5 t) (iblk m c 6 t) (iblk m c 7 t))))
  rw [win0_8.fill_congr_cut (grid0.coords t) (cut_out0 m hloc c t d0 d1)]
  try iexact H8

/-- The library's loose body obligation, at every point. -/
theorem body_obligation (hloc : RowLocal F) (c : Dev nD) :
    BodyObligationLoose (dats (F := F) m 0 c) (defs₀ (F := F)) Variants.none () Set.univ := fun t => by
  rw [bigSep_W0, bigSep_W0]
  exact sound_body m hloc c t

/-! ## The same, saying nothing of the result's buffer -/

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4, before0_5 m c t d5,
    before0_6 m c t d6, before0_7 m c t d7]
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_0.fill (grid0.coords t) d0 (iblk m c 0 t)) (win0_1.fill (grid0.coords t) d1 (iblk m c 1 t)) (iblk m c 2 t) (iblk m c 3 t)
    (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · iexists d0
    rw [after0_0 m c t]
    change _ ⊢ owns (c : Thread nD τ) (st0_0 t) fullShare (win0_0.fill (grid0.coords t) d0 (win0_0.cut (grid0.coords t) (xblk m c t)))
    rw [show win0_0.cut (grid0.coords t) (xblk m c t) = iblk m c 0 t from win0_0.cut_fill _ _ _]
    try iexact H0
  isplitl [H1]
  · iexists d1
    rw [after0_1 m c t]
    change _ ⊢ owns (c : Thread nD τ) (st0_1 t) fullShare (win0_1.fill (grid0.coords t) d1 (win0_1.cut (grid0.coords t) (hblk m c t)))
    rw [show win0_1.cut (grid0.coords t) (hblk m c t) = iblk m c 1 t from win0_1.cut_fill _ _ _]
    try iexact H1
  isplitl [H2]
  · rw [after0_2 m c t]; iexact H2
  isplitl [H3]
  · rw [after0_3 m c t]; iexact H3
  isplitl [H4]
  · rw [after0_4 m c t]; iexact H4
  isplitl [H5]
  · rw [after0_5 m c t]; iexact H5
  isplitl [H6]
  · rw [after0_6 m c t]; iexact H6
  isplitl [H7]
  · rw [after0_7 m c t]; iexact H7
  iexists _; iexact H8

theorem body_obligationF (c : Dev nD) :
    BodyObligationLoose (dats (F := F) m 0 c) (defs₀ (F := F)) Variants.none () Set.univ forgets0 := fun t => by
  rw [bigSep_W0, bigSep_W0]
  exact sound_bodyF m c t

end Cert.KernelIdeal.Hand

end
-- ==== Proof.IdealRun.lean ====
/-
  The run of the idealized kernel program, from the body's obligation: at any float instance at which the body's value
  is row-local, every weakly fair execution of the program terminates without a fault; each array the pipeline stages
  ends at what the write-backs leave (an input as it was, the result block by block what the body computed), and
  every other buffer at what the host operations around the region give it. The frame claim is its reading at the
  eight arguments.
-/
import proofs.«143251_j19774029431558_2_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

set_option backward.isDefEq.respectTransparency.types false in
theorem run_main (hloc : RowLocal F) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and leaves its eight arguments as they were. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧      r.2.mem ((c.tc : Thread nD τ).loc main_arg1) = m ((c.tc : Thread nD τ).loc main_arg1)
      ∧      r.2.mem ((c.tc : Thread nD τ).loc main_arg2) = m ((c.tc : Thread nD τ).loc main_arg2)
      ∧      r.2.mem ((c.tc : Thread nD τ).loc main_arg3) = m ((c.tc : Thread nD τ).loc main_arg3)
      ∧      r.2.mem ((c.tc : Thread nD τ).loc main_arg4) = m ((c.tc : Thread nD τ).loc main_arg4)
      ∧      r.2.mem ((c.tc : Thread nD τ).loc main_arg5) = m ((c.tc : Thread nD τ).loc main_arg5)
      ∧      r.2.mem ((c.tc : Thread nD τ).loc main_arg6) = m ((c.tc : Thread nD τ).loc main_arg6)
      ∧      r.2.mem ((c.tc : Thread nD τ).loc main_arg7) = m ((c.tc : Thread nD τ).loc main_arg7)) :=
  frame_of m ρ (dats m) (A_eq m) (run_main m ρ hloc)

end Cert.KernelIdeal.Hand

end
-- ==== Proof.Spec.lean ====
/-
  One row of the gated recurrent cell, over the extended reals, in two arrangements, and the law that joins them.

  A row has an input part x (192 entries) and a state part h (1024 entries). The reference contracts the
  concatenated row [x | h] (1216 entries) with each gate's weight matrix:
      z = σ([x|h]·Wz + bz),   r = σ([x|h]·Wr + br),   c = tanh([x | r*h]·Wc + bc),   out = (1 - z)*h + z*c,
  σ y = 1 / (1 + exp (-y)). The kernel splits every contraction into its x part and its h part and stacks the
  z and r gates side by side (2048 columns: z in columns 0..1023, r in columns 1024..2047). A sum over 192 + 1024
  indices is the sum over the first 192 plus the sum over the last 1024, in any commutative monoid — no finiteness
  is needed —, which is the whole law.
-/
import Idealize.ShloMosaic.PureOps.Ideal
import Idealize.ShloMosaic.Lib.ValueIdx

noncomputable section

open scoped BigOperators

namespace Cert.Gru

open Idealize.ShloMosaic Idealize.ShloMosaic.ValueIdx

/-- The float literal 1.0 as the programs spell it. -/
abbrev one32 : EReal := Ideal.ofBits .f32 0x3F800000#32

/-- It denotes 1. -/
theorem one32_eq : one32 = 1 := by
  simp [one32, Ideal.ofBits, Ideal.ieee, -EReal.coe_mul]; norm_num

/-- Column j of the z half of the stacked gates; -/
abbrev lo (j : Fin 1024) : Fin 2048 := ⟨j.val, by have := j.isLt; omega⟩
/-- column j of the r half. -/
abbrev hi (j : Fin 1024) : Fin 2048 := ⟨1024 + j.val, by have := j.isLt; omega⟩
/-- Row k of the x part of a gate's weights; -/
abbrev inl (k : Fin 192) : Fin 1216 := ⟨k.val, by have := k.isLt; omega⟩
/-- row k of the h part. -/
abbrev inr (k : Fin 1024) : Fin 1216 := ⟨192 + k.val, by have := k.isLt; omega⟩

/-! ## The kernel's arrangement -/

/-- A stacked gate column before the nonlinearity: the x part's product, plus the h part's, plus the bias. -/
def zrLin (x : Fin 192 → EReal) (h : Fin 1024 → EReal) (Wxzr : Fin 192 → Fin 2048 → EReal)
    (Whzr : Fin 1024 → Fin 2048 → EReal) (bzr : Fin 2048 → EReal) (n : Fin 2048) : EReal :=
  ((∑ k : Fin 192, x k * Wxzr k n) + ∑ k : Fin 1024, h k * Whzr k n) + bzr n

/-- Entry j of the new state, with the contractions split and the z and r gates stacked. -/
def rowSplit (x : Fin 192 → EReal) (h : Fin 1024 → EReal) (Wxzr : Fin 192 → Fin 2048 → EReal)
    (Whzr : Fin 1024 → Fin 2048 → EReal) (bzr : Fin 2048 → EReal) (Wxc : Fin 192 → Fin 1024 → EReal)
    (Whc : Fin 1024 → Fin 1024 → EReal) (bc : Fin 1024 → EReal) (j : Fin 1024) : EReal :=
  (one32 - Ideal.logistic (zrLin x h Wxzr Whzr bzr (lo j))) * h j
    + Ideal.logistic (zrLin x h Wxzr Whzr bzr (lo j))
      * Ideal.tanh (((∑ k : Fin 192, x k * Wxc k j)
          + ∑ k : Fin 1024, (Ideal.logistic (zrLin x h Wxzr Whzr bzr (hi k)) * h k) * Whc k j) + bc j)

/-! ## The reference's arrangement -/

/-- The concatenated row [x | h]. -/
def cat (x : Fin 192 → EReal) (h : Fin 1024 → EReal) (c : Fin 1216) : EReal :=
  if hc : c.val < 192 then x ⟨c.val, hc⟩ else h ⟨c.val - 192, by have := c.isLt; omega⟩

/-- The logistic function as jax expands it on the host. -/
def sig (y : EReal) : EReal := Ideal.div one32 (one32 + Ideal.exp (-y))

/-- A gate column before the nonlinearity: the concatenated row's product with the weights, plus the bias. -/
def catLin (v : Fin 1216 → EReal) (W : Fin 1216 → Fin 1024 → EReal) (b : Fin 1024 → EReal) (j : Fin 1024) : EReal :=
  (∑ c : Fin 1216, v c * W c j) + b j

/-- Entry j of the new state as the reference computes it. -/
def rowCat (x : Fin 192 → EReal) (h : Fin 1024 → EReal) (Wz Wr Wc : Fin 1216 → Fin 1024 → EReal)
    (bz br bc : Fin 1024 → EReal) (j : Fin 1024) : EReal :=
  (one32 - sig (catLin (cat x h) Wz bz j)) * h j
    + sig (catLin (cat x h) Wz bz j)
      * Ideal.tanh (catLin (cat x (fun k => sig (catLin (cat x h) Wr br k) * h k)) Wc bc j)

/-! ## The law -/

theorem cat_inl (x : Fin 192 → EReal) (h : Fin 1024 → EReal) (k : Fin 192) : cat x h (inl k) = x k := by
  unfold cat; rw [dif_pos (show (inl k).val < 192 from k.isLt)]

theorem cat_inr (x : Fin 192 → EReal) (h : Fin 1024 → EReal) (k : Fin 1024) : cat x h (inr k) = h k := by
  unfold cat
  rw [dif_neg (show ¬(inr k).val < 192 from by show ¬(192 + k.val < 192); omega)]
  exact congrArg h (Fin.ext (by show 192 + k.val - 192 = k.val; omega))

/-- A sum over the 1216 entries is the sum over the x part plus the sum over the h part. -/
theorem sum_split (f : Fin 1216 → EReal) :
    ∑ c : Fin 1216, f c = (∑ k : Fin 192, f (inl k)) + ∑ k : Fin 1024, f (inr k) := by
  have e := Fin.sum_univ_add (M := EReal) (a := 192) (b := 1024) f
  rw [e]
  rfl

/-- The concatenated row's product is the sum of the two parts' products. -/
theorem sum_cat (x : Fin 192 → EReal) (h : Fin 1024 → EReal) (w : Fin 1216 → EReal) :
    ∑ c : Fin 1216, cat x h c * w c = (∑ k : Fin 192, x k * w (inl k)) + ∑ k : Fin 1024, h k * w (inr k) := by
  rw [sum_split]
  simp only [cat_inl, cat_inr]

/-- The host's expansion of the logistic function is the logistic function. -/
theorem sig_eq (y : EReal) : sig y = Ideal.logistic y := by
  unfold sig Ideal.logistic; rw [one32_eq]

/-- THE LAW: when the split and stacked weights are the parts of the gates' weights, the two arrangements agree. -/
theorem rowCat_eq_rowSplit (x : Fin 192 → EReal) (h : Fin 1024 → EReal) (Wz Wr Wc : Fin 1216 → Fin 1024 → EReal)
    (bz br bc : Fin 1024 → EReal) (Wxzr : Fin 192 → Fin 2048 → EReal) (Whzr : Fin 1024 → Fin 2048 → EReal)
    (bzr : Fin 2048 → EReal) (Wxc : Fin 192 → Fin 1024 → EReal) (Whc : Fin 1024 → Fin 1024 → EReal)
    (hxz : ∀ k j, Wxzr k (lo j) = Wz (inl k) j) (hxr : ∀ k j, Wxzr k (hi j) = Wr (inl k) j)
    (hhz : ∀ k j, Whzr k (lo j) = Wz (inr k) j) (hhr : ∀ k j, Whzr k (hi j) = Wr (inr k) j)
    (hbz : ∀ j, bzr (lo j) = bz j) (hbr : ∀ j, bzr (hi j) = br j)
    (hxc : ∀ k j, Wxc k j = Wc (inl k) j) (hhc : ∀ k j, Whc k j = Wc (inr k) j) (j : Fin 1024) :
    rowCat x h Wz Wr Wc bz br bc j = rowSplit x h Wxzr Whzr bzr Wxc Whc bc j := by
  have hz : ∀ j, catLin (cat x h) Wz bz j = zrLin x h Wxzr Whzr bzr (lo j) := fun j => by
    unfold catLin zrLin; rw [sum_cat x h (fun c => Wz c j)]; simp only [hxz, hhz, hbz]
  have hr : ∀ j, catLin (cat x h) Wr br j = zrLin x h Wxzr Whzr bzr (hi j) := fun j => by
    unfold catLin zrLin; rw [sum_cat x h (fun c => Wr c j)]; simp only [hxr, hhr, hbr]
  unfold rowCat rowSplit
  rw [hz j]
  simp only [sig_eq, hr]
  unfold catLin
  rw [sum_cat x _ (fun c => Wc c j)]
  simp only [hxc, hhc]

/-! ## The whole result as one function of the eight argument arrays -/

/-- Row (b, n) of the input, flattened: entry k is diffused_x[b, n, k / 64, k % 64]. -/
def xrow (a0 : (⟨4, ![64, 325, 3, 64]⟩ : Shape).Idx → EReal) (b : Fin 64) (n : Fin 325) (k : Fin 192) : EReal :=
  a0 (ix4 b n ⟨k.val / 64, by have := k.isLt; omega⟩ ⟨k.val % 64, by omega⟩)
/-- Row (b, n) of the previous state. -/
def hrow (a1 : (⟨3, ![64, 325, 1024]⟩ : Shape).Idx → EReal) (b : Fin 64) (n : Fin 325) (k : Fin 1024) : EReal :=
  a1 (ix3 b n k)
/-- A gate's weight matrix by row and column. -/
def mat (a : (⟨2, ![1216, 1024]⟩ : Shape).Idx → EReal) (c : Fin 1216) (j : Fin 1024) : EReal := a (ix2 c j)
/-- A gate's bias by column. -/
def vec (a : (⟨1, ![1024]⟩ : Shape).Idx → EReal) (j : Fin 1024) : EReal := a (ix1 j)

/-- THE SPECIFICATION: entry (b, n, j) of the new state is the reference-form cell applied to row (b, n). The
    arguments in the programs' order: diffused_x, h_prev, Wz, bz, Wr, br, Wc, bc. -/
def G (a0 : (⟨4, ![64, 325, 3, 64]⟩ : Shape).Idx → EReal) (a1 : (⟨3, ![64, 325, 1024]⟩ : Shape).Idx → EReal)
    (a2 : (⟨2, ![1216, 1024]⟩ : Shape).Idx → EReal) (a3 : (⟨1, ![1024]⟩ : Shape).Idx → EReal)
    (a4 : (⟨2, ![1216, 1024]⟩ : Shape).Idx → EReal) (a5 : (⟨1, ![1024]⟩ : Shape).Idx → EReal)
    (a6 : (⟨2, ![1216, 1024]⟩ : Shape).Idx → EReal) (a7 : (⟨1, ![1024]⟩ : Shape).Idx → EReal) :
    (⟨3, ![64, 325, 1024]⟩ : Shape).Idx → EReal :=
  fun i => rowCat (xrow a0 (i 0) (i 1)) (hrow a1 (i 0) (i 1)) (mat a2) (mat a4) (mat a6) (vec a3) (vec a5) (vec a7) (i 2)

end Cert.Gru

end
-- ==== Proof.IdealBlocks.lean ====
/-
  The staged blocks and the result's blocks, as pieces of the arrays.

  Point t of the 41-point grid stages rows 512·t … of x and of h, and every one of the six resident operands whole;
  it writes back rows 512·t … 512·t + 511 of the result, cut at the array's 20800 rows: the last point (t = 40) moves
  320 rows. So a padded block of x or h, read at a moved row p, is the array at row 512·t + p; a row r of the result
  lies in the block of the point r / 512; and the blocks together cover the result. After the region one host
  operation reshapes the [20800, 1024] result to [64, 325, 1024].
-/
import proofs.«143251_j19774029431558_2_alg».proof.Proof.IdealRun
import proofs.«143251_j19774029431558_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-! ## The index maps, decided over the grid -/

/-- The three row-blocked windows are at block (t, 0) at point t, and the result's block there has 512 rows, or 320 at
    the last point, of 1024 columns. -/
theorem geom : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_8.xsize (grid0.coords t) (0 : Fin 2) = (if t.val = 40 then 320 else 512)
    ∧ win0_8.xsize (grid0.coords t) (1 : Fin 2) = 1024 :=
  (by decide +kernel : ∀ t : Fin grid0.N, _)

/-- The six resident operands are at block (0, 0) at every point. -/
theorem geomW : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The staged blocks, read at an index -/

/-- x's padded block at a moved row p is x's array at row 512·t + p. -/
theorem xblk_apply (c : Dev nD) (t : Fin cfg0.N) (p : Fin 512) (k : Fin 192) (hp : p.val < win0_8.xsize (grid0.coords t) 0)
    (r : Fin 20800) (hr : r.val = t.val * 512 + p.val) :
    xblk m c t (ix2 p k) = V m c main_v1 (ix2 r k) := by
  obtain ⟨h00, h10, h01, h11⟩ := xsize_rows t
  obtain ⟨g00, g01, g10, g11, g80, g81, gx0, gx1⟩ := geom t
  have hm : win0_0.moved (grid0.coords t) (ix2 p k) = true := (win0_0.moved_iff _ _).mpr fun a => by
    match a with
    | ⟨0, _⟩ => show p.val < win0_0.xsize (grid0.coords t) 0; omega
    | ⟨1, _⟩ => show k.val < win0_0.xsize (grid0.coords t) 1; have := k.isLt; omega
  unfold xblk Pipeline.Window.fill
  rw [dif_pos hm]
  unfold iblk
  show V m c main_v1 (((cfg0.win 0).blk t).view.emb _) = V m c main_v1 (ix2 r k)
  refine congrArg (V m c main_v1) (funext fun a => Fin.ext ?_)
  match a with
  | ⟨0, _⟩ => show win0_0.index t (0 : Fin 2) * 512 + 1 * p.val = r.val; omega
  | ⟨1, _⟩ => show win0_0.index t (1 : Fin 2) * 192 + 1 * k.val = k.val; omega

/-- h's likewise. -/
theorem hblk_apply (c : Dev nD) (t : Fin cfg0.N) (p : Fin 512) (k : Fin 1024) (hp : p.val < win0_8.xsize (grid0.coords t) 0)
    (r : Fin 20800) (hr : r.val = t.val * 512 + p.val) :
    hblk m c t (ix2 p k) = V m c main_v2 (ix2 r k) := by
  obtain ⟨h00, h10, h01, h11⟩ := xsize_rows t
  obtain ⟨g00, g01, g10, g11, g80, g81, gx0, gx1⟩ := geom t
  have hm : win0_1.moved (grid0.coords t) (ix2 p k) = true := (win0_1.moved_iff _ _).mpr fun a => by
    match a with
    | ⟨0, _⟩ => show p.val < win0_1.xsize (grid0.coords t) 0; omega
    | ⟨1, _⟩ => show k.val < win0_1.xsize (grid0.coords t) 1; have := k.isLt; omega
  unfold hblk Pipeline.Window.fill
  rw [dif_pos hm]
  unfold iblk
  show V m c main_v2 (((cfg0.win 1).blk t).view.emb _) = V m c main_v2 (ix2 r k)
  refine congrArg (V m c main_v2) (funext fun a => Fin.ext ?_)
  match a with
  | ⟨0, _⟩ => show win0_1.index t (0 : Fin 2) * 512 + 1 * p.val = r.val; omega
  | ⟨1, _⟩ => show win0_1.index t (1 : Fin 2) * 1024 + 1 * k.val = k.val; omega

/-- Resident operand 2's block is its whole array at every point. -/
theorem iblk2_apply (c : Dev nD) (t : Fin cfg0.N) (k : Fin 192) (n : Fin 2048) :
    iblk m c 2 t (ix2 k n) = V m c main_v12 (ix2 k n) := by
  obtain ⟨g20, g21, g30, g31, g40, g41, g50, g51, g60, g61, g70, g71⟩ := geomW t
  unfold iblk
  show V m c main_v12 (((cfg0.win 2).blk t).view.emb (ix2 k n)) = V m c main_v12 (ix2 k n)
  refine congrArg (V m c main_v12) (funext fun a => Fin.ext ?_)
  match a with
  | ⟨0, _⟩ => show win0_2.index t (0 : Fin 2) * 192 + 1 * k.val = k.val; omega
  | ⟨1, _⟩ => show win0_2.index t (1 : Fin 2) * 2048 + 1 * n.val = n.val; omega

/-- Resident operand 3's block is its whole array at every point. -/
theorem iblk3_apply (c : Dev nD) (t : Fin cfg0.N) (k : Fin 1024) (n : Fin 2048) :
    iblk m c 3 t (ix2 k n) = V m c main_v14 (ix2 k n) := by
  obtain ⟨g20, g21, g30, g31, g40, g41, g50, g51, g60, g61, g70, g71⟩ := geomW t
  unfold iblk
  show V m c main_v14 (((cfg0.win 3).blk t).view.emb (ix2 k n)) = V m c main_v14 (ix2 k n)
  refine congrArg (V m c main_v14) (funext fun a => Fin.ext ?_)
  match a with
  | ⟨0, _⟩ => show win0_3.index t (0 : Fin 2) * 1024 + 1 * k.val = k.val; omega
  | ⟨1, _⟩ => show win0_3.index t (1 : Fin 2) * 2048 + 1 * n.val = n.val; omega

/-- Resident operand 4's block is its whole array at every point. -/
theorem iblk4_apply (c : Dev nD) (t : Fin cfg0.N) (k : Fin 1) (n : Fin 2048) :
    iblk m c 4 t (ix2 k n) = V m c main_v16 (ix2 k n) := by
  obtain ⟨g20, g21, g30, g31, g40, g41, g50, g51, g60, g61, g70, g71⟩ := geomW t
  unfold iblk
  show V m c main_v16 (((cfg0.win 4).blk t).view.emb (ix2 k n)) = V m c main_v16 (ix2 k n)
  refine congrArg (V m c main_v16) (funext fun a => Fin.ext ?_)
  match a with
  | ⟨0, _⟩ => show win0_4.index t (0 : Fin 2) * 1 + 1 * k.val = k.val; omega
  | ⟨1, _⟩ => show win0_4.index t (1 : Fin 2) * 2048 + 1 * n.val = n.val; omega

/-- Resident operand 5's block is its whole array at every point. -/
theorem iblk5_apply (c : Dev nD) (t : Fin cfg0.N) (k : Fin 192) (n : Fin 1024) :
    iblk m c 5 t (ix2 k n) = V m c main_v8 (ix2 k n) := by
  obtain ⟨g20, g21, g30, g31, g40, g41, g50, g51, g60, g61, g70, g71⟩ := geomW t
  unfold iblk
  show V m c main_v8 (((cfg0.win 5).blk t).view.emb (ix2 k n)) = V m c main_v8 (ix2 k n)
  refine congrArg (V m c main_v8) (funext fun a => Fin.ext ?_)
  match a with
  | ⟨0, _⟩ => show win0_5.index t (0 : Fin 2) * 192 + 1 * k.val = k.val; omega
  | ⟨1, _⟩ => show win0_5.index t (1 : Fin 2) * 1024 + 1 * n.val = n.val; omega

/-- Resident operand 6's block is its whole array at every point. -/
theorem iblk6_apply (c : Dev nD) (t : Fin cfg0.N) (k : Fin 1024) (n : Fin 1024) :
    iblk m c 6 t (ix2 k n) = V m c main_v10 (ix2 k n) := by
  obtain ⟨g20, g21, g30, g31, g40, g41, g50, g51, g60, g61, g70, g71⟩ := geomW t
  unfold iblk
  show V m c main_v10 (((cfg0.win 6).blk t).view.emb (ix2 k n)) = V m c main_v10 (ix2 k n)
  refine congrArg (V m c main_v10) (funext fun a => Fin.ext ?_)
  match a with
  | ⟨0, _⟩ => show win0_6.index t (0 : Fin 2) * 1024 + 1 * k.val = k.val; omega
  | ⟨1, _⟩ => show win0_6.index t (1 : Fin 2) * 1024 + 1 * n.val = n.val; omega

/-- Resident operand 7's block is its whole array at every point. -/
theorem iblk7_apply (c : Dev nD) (t : Fin cfg0.N) (k : Fin 1) (n : Fin 1024) :
    iblk m c 7 t (ix2 k n) = V m c main_v17 (ix2 k n) := by
  obtain ⟨g20, g21, g30, g31, g40, g41, g50, g51, g60, g61, g70, g71⟩ := geomW t
  unfold iblk
  show V m c main_v17 (((cfg0.win 7).blk t).view.emb (ix2 k n)) = V m c main_v17 (ix2 k n)
  refine congrArg (V m c main_v17) (funext fun a => Fin.ext ?_)
  match a with
  | ⟨0, _⟩ => show win0_7.index t (0 : Fin 2) * 1 + 1 * k.val = k.val; omega
  | ⟨1, _⟩ => show win0_7.index t (1 : Fin 2) * 1024 + 1 * n.val = n.val; omega

/-! ## The result's blocks -/

/-- An entry of the result's block at point t sits at row 512·t + its row, at its own column. -/
theorem emb8_val (t : Fin cfg0.N) (y : (win0_8.xblock (grid0.coords t)).Idx) :
    ((((cfg0.win 8).blk t).view.emb y) 0).val = t.val * 512 + (y 0).val ∧ ((((cfg0.win 8).blk t).view.emb y) 1).val = (y 1).val := by
  obtain ⟨g00, g01, g10, g11, g80, g81, gx0, gx1⟩ := geom t
  constructor
  · show win0_8.index t (0 : Fin 2) * 512 + 1 * (y 0).val = _; omega
  · show win0_8.index t (1 : Fin 2) * 1024 + 1 * (y 1).val = _; omega

/-- An index of the result is in point t's block iff on each axis it is in the block's range, cut at the array's end. -/
theorem mem_blk8 (t : Fin cfg0.N) (i : S20800x1024.Idx) :
    i ∈ ((cfg0.win 8).blk t).view.set ↔ ∀ a : Fin 2, win0_8.index t a * S512x1024.size a ≤ (i a).val
      ∧ (i a).val < win0_8.index t a * S512x1024.size a + win0_8.xsize (grid0.coords t) a := by
  show i ∈ ((View.whole main_v18).slice (win0_8.rect t)).set ↔ _
  rw [View.set_slice_whole, Rect.mem_set_unit]
  exact Iff.rfl

/-- Row r of the result is in the block of point r / 512: the blocks cover the array. -/
theorem covered8 (i : S20800x1024.Idx) : ∃ t : Fin cfg0.N, (cfg0.win 8).flush t = true ∧ i ∈ ((cfg0.win 8).blk t).view.set := by
  have hi0 : (i 0).val < 20800 := (i 0).isLt
  have hi1 : (i 1).val < 1024 := (i 1).isLt
  have hN : cfg0.N = 41 := N_0
  refine ⟨⟨(i 0).val / 512, by rw [hN]; omega⟩, flush0_8 _, ?_⟩
  rw [mem_blk8]
  obtain ⟨g00, g01, g10, g11, g80, g81, gx0, gx1⟩ := geom ⟨(i 0).val / 512, by rw [hN]; omega⟩
  intro a
  match a with
  | ⟨0, _⟩ =>
    show win0_8.index _ (0 : Fin 2) * 512 ≤ (i 0).val ∧ (i 0).val < win0_8.index _ (0 : Fin 2) * 512 + win0_8.xsize _ (0 : Fin 2)
    rw [g80, gx0]
    show (i 0).val / 512 * 512 ≤ (i 0).val ∧ (i 0).val < (i 0).val / 512 * 512 + (if (i 0).val / 512 = 40 then 320 else 512)
    split <;> omega
  | ⟨1, _⟩ =>
    show win0_8.index _ (1 : Fin 2) * 1024 ≤ (i 1).val ∧ (i 1).val < win0_8.index _ (1 : Fin 2) * 1024 + win0_8.xsize _ (1 : Fin 2)
    rw [g81, gx1]; omega

/-! ## The host operation after the region -/

/-- The program's result is the reshape of the array the region wrote. -/
theorem tail_v19 (c : Dev nD) :
    Pipeline.afterTail₀ cfgs (dats m) 0 (V0 m) [hostOps1] c main_v19
      = shapeCast S64x325x1024 ((dats m 0 c).arrAt 8 cfg0.N) shapeCasts_S20800x1024_S64x325x1024 := by
  unfold Pipeline.afterTail₀
  show StableHlo.after hostOps1 _ (Proc.devRef .tc main_v19) = _
  after_results
  rw [Pipeline.withArrays_arr spec0 launch0.win.arr_inj c _ _ 8]
  rfl

end Cert.KernelIdeal.Hand

end
-- ==== Proof.IdealPayload.lean ====
/-
  The value the kernel body stores, read at one entry, at the extended reals.

  The body computes, from a block of 512 rows of x (192 entries each) and of h (1024 entries each),
      [z | r] = logistic (x·Wxzr + h·Whzr + bzr)           (2048 columns: z in 0..1023, r in 1024..2047),
      c       = tanh (x·Wxc + (r * h)·Whc + bc),
      out     = (1 - z) * h + z * c.
  Each product is a contraction over one axis into a zero accumulator, so entry (p, n) of it is the sum over the
  contracted positions of row p of the left factor against column n of the right; the casts to the same shape and
  the narrowing to bf16 are the identity here; a bias of one row is read at its column whatever the row. Entry
  (p, j) of the result is therefore the split-and-stacked cell of the shared specification applied to row p of x
  and row p of h — and so depends on no other row of either.
-/
import proofs.«143251_j19774029431558_2_alg».proof.Proof.IdealData
import proofs.«143251_j19774029431558_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.ValueIdx

/-! ### x's product with the stacked gates' weights -/

theorem mm_x_zr_lhs0 (i : S512x2048.Idx) (q : dot_S512x192_S192x2048_S512x2048_1_0_0_1_n_n.contr.Idx) :
    (dot_S512x192_S192x2048_S512x2048_1_0_0_1_n_n.lhsIdx i q 0).val = (i 0).val := by
  unfold DotDims.lhsIdx
  rw [dif_neg (show ¬(0 : Fin S512x192.rank) ∈ dot_S512x192_S192x2048_S512x2048_1_0_0_1_n_n.lhsBatch by decide), dif_pos (show (0 : Fin S512x192.rank) ∈ dot_S512x192_S192x2048_S512x2048_1_0_0_1_n_n.lhsNonContracting by decide)]
  rfl
theorem mm_x_zr_lhs1 (i : S512x2048.Idx) (q : dot_S512x192_S192x2048_S512x2048_1_0_0_1_n_n.contr.Idx) :
    (dot_S512x192_S192x2048_S512x2048_1_0_0_1_n_n.lhsIdx i q 1).val = (q ⟨0, by decide⟩).val :=
  dot_S512x192_S192x2048_S512x2048_1_0_0_1_n_n.lhsIdx_val_of_single rfl i q
theorem mm_x_zr_rhs0 (i : S512x2048.Idx) (q : dot_S512x192_S192x2048_S512x2048_1_0_0_1_n_n.contr.Idx) :
    (dot_S512x192_S192x2048_S512x2048_1_0_0_1_n_n.rhsIdx i q 0).val = (q ⟨0, by decide⟩).val :=
  dot_S512x192_S192x2048_S512x2048_1_0_0_1_n_n.rhsIdx_val_of_single rfl i q
theorem mm_x_zr_rhs1 (i : S512x2048.Idx) (q : dot_S512x192_S192x2048_S512x2048_1_0_0_1_n_n.contr.Idx) :
    (dot_S512x192_S192x2048_S512x2048_1_0_0_1_n_n.rhsIdx i q 1).val = (i 1).val := by
  unfold DotDims.rhsIdx
  rw [dif_neg (show ¬(1 : Fin S192x2048.rank) ∈ dot_S512x192_S192x2048_S512x2048_1_0_0_1_n_n.rhsBatch by decide), dif_pos (show (1 : Fin S192x2048.rank) ∈ dot_S512x192_S192x2048_S512x2048_1_0_0_1_n_n.rhsNonContracting by decide)]
  rfl

/-- Entry (p, n) of the product into a zero accumulator: the sum over the 192 contracted positions of row p of the
    left factor against column n of the right. -/
theorem mm_x_zr_apply (l : FVec Ideal S512x192 .bf16) (r : FVec Ideal S192x2048 .bf16) (p : Fin 512) (n : Fin 2048) :
    matmul dot_S512x192_S192x2048_S512x2048_1_0_0_1_n_n none l r (constant (F := Ideal) S512x2048 .f32 0x00000000#32) (ix2 p n)
      = ∑ k : Fin 192, l (ix2 p k) * r (ix2 k n) := by
  refine (Ideal.matmul_constant_zero_apply dot_S512x192_S192x2048_S512x2048_1_0_0_1_n_n none l r (ix2 p n)).trans ?_
  rw [← Equiv.sum_comp (contrEquiv1 dot_S512x192_S192x2048_S512x2048_1_0_0_1_n_n 192 rfl rfl).symm]
  refine Finset.sum_congr rfl fun k _ => ?_
  have hk := contrEquiv1_symm_val dot_S512x192_S192x2048_S512x2048_1_0_0_1_n_n 192 rfl rfl k
  have el : dot_S512x192_S192x2048_S512x2048_1_0_0_1_n_n.lhsIdx (ix2 p n) ((contrEquiv1 dot_S512x192_S192x2048_S512x2048_1_0_0_1_n_n 192 rfl rfl).symm k) = ix2 p k := funext fun a => Fin.ext (by
    match a with
    | ⟨0, _⟩ => exact mm_x_zr_lhs0 (ix2 p n) ((contrEquiv1 dot_S512x192_S192x2048_S512x2048_1_0_0_1_n_n 192 rfl rfl).symm k)
    | ⟨1, _⟩ => exact (mm_x_zr_lhs1 (ix2 p n) ((contrEquiv1 dot_S512x192_S192x2048_S512x2048_1_0_0_1_n_n 192 rfl rfl).symm k)).trans hk)
  have er : dot_S512x192_S192x2048_S512x2048_1_0_0_1_n_n.rhsIdx (ix2 p n) ((contrEquiv1 dot_S512x192_S192x2048_S512x2048_1_0_0_1_n_n 192 rfl rfl).symm k) = ix2 k n := funext fun a => Fin.ext (by
    match a with
    | ⟨0, _⟩ => exact (mm_x_zr_rhs0 (ix2 p n) ((contrEquiv1 dot_S512x192_S192x2048_S512x2048_1_0_0_1_n_n 192 rfl rfl).symm k)).trans hk
    | ⟨1, _⟩ => exact mm_x_zr_rhs1 (ix2 p n) ((contrEquiv1 dot_S512x192_S192x2048_S512x2048_1_0_0_1_n_n 192 rfl rfl).symm k))
  rw [el, er]

/-! ### h's product with the stacked gates' weights -/

theorem mm_h_zr_lhs0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem mm_h_zr_lhs1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem mm_h_zr_rhs0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem mm_h_zr_rhs1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- Entry (p, n) of the product into a zero accumulator: the sum over the 1024 contracted positions of row p of the
    left factor against column n of the right. -/
theorem mm_h_zr_apply (l : FVec Ideal S512x1024 .bf16) (r : FVec Ideal S1024x2048 .bf16) (p : Fin 512) (n : Fin 2048) :
    matmul dot_S512x1024_S1024x2048_S512x2048_1_0_0_1_n_n none l r (constant (F := Ideal) S512x2048 .f32 0x00000000#32) (ix2 p n)
      = ∑ k : Fin 1024, l (ix2 p k) * r (ix2 k n) := by
  refine (Ideal.matmul_constant_zero_apply dot_S512x1024_S1024x2048_S512x2048_1_0_0_1_n_n none l r (ix2 p n)).trans ?_
  rw [← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p n) ((contrEquiv1 dot_S512x1024_S1024x2048_S512x2048_1_0_0_1_n_n 1024 rfl rfl).symm k) = ix2 p k := funext fun a => Fin.ext (by
    match a with
    | ⟨0, _⟩ => exact mm_h_zr_lhs0 (ix2 p n) ((contrEquiv1 dot_S512x1024_S1024x2048_S512x2048_1_0_0_1_n_n 1024 rfl rfl).symm k)
    | ⟨1, _⟩ => exact (mm_h_zr_lhs1 (ix2 p n) ((contrEquiv1 dot_S512x1024_S1024x2048_S512x2048_1_0_0_1_n_n 1024 rfl rfl).symm k)).trans hk)
  have er : dot_S512x1024_S1024x2048_S512x2048_1_0_0_1_n_n.rhsIdx (ix2 p n) ((contrEquiv1 dot_S512x1024_S1024x2048_S512x2048_1_0_0_1_n_n 1024 rfl rfl).symm k) = ix2 k n := funext fun a => Fin.ext (by
    match a with
    | ⟨0, _⟩ => exact (mm_h_zr_rhs0 (ix2 p n) ((contrEquiv1 dot_S512x1024_S1024x2048_S512x2048_1_0_0_1_n_n 1024 rfl rfl).symm k)).trans hk
    | ⟨1, _⟩ => exact mm_h_zr_rhs1 (ix2 p n) ((contrEquiv1 dot_S512x1024_S1024x2048_S512x2048_1_0_0_1_n_n 1024 rfl rfl).symm k))
  rw [el, er]

/-! ### x's product with the candidate's weights -/

theorem mm_x_c_lhs0 (i : S512x1024.Idx) (q : dot_S512x192_S192x1024_S512x1024_1_0_0_1_n_n.contr.Idx) :
    (dot_S512x192_S192x1024_S512x1024_1_0_0_1_n_n.lhsIdx i q 0).val = (i 0).val := by
  unfold DotDims.lhsIdx
  rw [dif_neg (show ¬(0 : Fin S512x192.rank) ∈ dot_S512x192_S192x1024_S512x1024_1_0_0_1_n_n.lhsBatch by decide), dif_pos (show (0 : Fin S512x192.rank) ∈ dot_S512x192_S192x1024_S512x1024_1_0_0_1_n_n.lhsNonContracting by decide)]
  rfl
theorem mm_x_c_lhs1 (i : S512x1024.Idx) (q : dot_S512x192_S192x1024_S512x1024_1_0_0_1_n_n.contr.Idx) :
    (dot_S512x192_S192x1024_S512x1024_1_0_0_1_n_n.lhsIdx i q 1).val = (q ⟨0, by decide⟩).val :=
  dot_S512x192_S192x1024_S512x1024_1_0_0_1_n_n.lhsIdx_val_of_single rfl i q
theorem mm_x_c_rhs0 (i : S512x1024.Idx) (q : dot_S512x192_S192x1024_S512x1024_1_0_0_1_n_n.contr.Idx) :
    (dot_S512x192_S192x1024_S512x1024_1_0_0_1_n_n.rhsIdx i q 0).val = (q ⟨0, by decide⟩).val :=
  dot_S512x192_S192x1024_S512x1024_1_0_0_1_n_n.rhsIdx_val_of_single rfl i q
theorem mm_x_c_rhs1 (i : S512x1024.Idx) (q : dot_S512x192_S192x1024_S512x1024_1_0_0_1_n_n.contr.Idx) :
    (dot_S512x192_S192x1024_S512x1024_1_0_0_1_n_n.rhsIdx i q 1).val = (i 1).val := by
  unfold DotDims.rhsIdx
  rw [dif_neg (show ¬(1 : Fin S192x1024.rank) ∈ dot_S512x192_S192x1024_S512x1024_1_0_0_1_n_n.rhsBatch by decide), dif_pos (show (1 : Fin S192x1024.rank) ∈ dot_S512x192_S192x1024_S512x1024_1_0_0_1_n_n.rhsNonContracting by decide)]
  rfl

/-- Entry (p, n) of the product into a zero accumulator: the sum over the 192 contracted positions of row p of the
    left factor against column n of the right. -/
theorem mm_x_c_apply (l : FVec Ideal S512x192 .bf16) (r : FVec Ideal S192x1024 .bf16) (p : Fin 512) (n : Fin 1024) :
    matmul dot_S512x192_S192x1024_S512x1024_1_0_0_1_n_n none l r (constant (F := Ideal) S512x1024 .f32 0x00000000#32) (ix2 p n)
      = ∑ k : Fin 192, l (ix2 p k) * r (ix2 k n) := by
  refine (Ideal.matmul_constant_zero_apply dot_S512x192_S192x1024_S512x1024_1_0_0_1_n_n none l r (ix2 p n)).trans ?_
  rw [← Equiv.sum_comp (contrEquiv1 dot_S512x192_S192x1024_S512x1024_1_0_0_1_n_n 192 rfl rfl).symm]
  refine Finset.sum_congr rfl fun k _ => ?_
  have hk := contrEquiv1_symm_val dot_S512x192_S192x1024_S512x1024_1_0_0_1_n_n 192 rfl rfl k
  have el : dot_S512x192_S192x1024_S512x1024_1_0_0_1_n_n.lhsIdx (ix2 p n) ((contrEquiv1 dot_S512x192_S192x1024_S512x1024_1_0_0_1_n_n 192 rfl rfl).symm k) = ix2 p k := funext fun a => Fin.ext (by
    match a with
    | ⟨0, _⟩ => exact mm_x_c_lhs0 (ix2 p n) ((contrEquiv1 dot_S512x192_S192x1024_S512x1024_1_0_0_1_n_n 192 rfl rfl).symm k)
    | ⟨1, _⟩ => exact (mm_x_c_lhs1 (ix2 p n) ((contrEquiv1 dot_S512x192_S192x1024_S512x1024_1_0_0_1_n_n 192 rfl rfl).symm k)).trans hk)
  have er : dot_S512x192_S192x1024_S512x1024_1_0_0_1_n_n.rhsIdx (ix2 p n) ((contrEquiv1 dot_S512x192_S192x1024_S512x1024_1_0_0_1_n_n 192 rfl rfl).symm k) = ix2 k n := funext fun a => Fin.ext (by
    match a with
    | ⟨0, _⟩ => exact (mm_x_c_rhs0 (ix2 p n) ((contrEquiv1 dot_S512x192_S192x1024_S512x1024_1_0_0_1_n_n 192 rfl rfl).symm k)).trans hk
    | ⟨1, _⟩ => exact mm_x_c_rhs1 (ix2 p n) ((contrEquiv1 dot_S512x192_S192x1024_S512x1024_1_0_0_1_n_n 192 rfl rfl).symm k))
  rw [el, er]

/-! ### The gated state's product with the candidate's weights -/

theorem mm_h_c_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_h_c_lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm_h_c_rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem mm_h_c_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, n) of the product into a zero accumulator: the sum over the 1024 contracted positions of row p of the
    left factor against column n of the right. -/
theorem mm_h_c_apply (l : FVec Ideal S512x1024 .bf16) (r : FVec Ideal S1024x1024 .bf16) (p : Fin 512) (n : Fin 1024) :
    matmul dot_S512x1024_S1024x1024_S512x1024_1_0_0_1_n_n none l r (constant (F := Ideal) S512x1024 .f32 0x00000000#32) (ix2 p n)
      = ∑ k : Fin 1024, l (ix2 p k) * r (ix2 k n) := by
  refine (Ideal.matmul_constant_zero_apply dot_S512x1024_S1024x1024_S512x1024_1_0_0_1_n_n none l r (ix2 p n)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p n) ((contrEquiv1 dot_S512x1024_S1024x1024_S512x1024_1_0_0_1_n_n 1024 rfl rfl).symm k) = ix2 p k := funext fun a => Fin.ext (by
    match a with
    | ⟨0, _⟩ => exact mm_h_c_lhs0 (ix2 p n) ((contrEquiv1 dot_S512x1024_S1024x1024_S512x1024_1_0_0_1_n_n 1024 rfl rfl).symm k)
    | ⟨1, _⟩ => exact (mm_h_c_lhs1 (ix2 p n) ((contrEquiv1 dot_S512x1024_S1024x1024_S512x1024_1_0_0_1_n_n 1024 rfl rfl).symm k)).trans hk)
  have er : dot_S512x1024_S1024x1024_S512x1024_1_0_0_1_n_n.rhsIdx (ix2 p n) ((contrEquiv1 dot_S512x1024_S1024x1024_S512x1024_1_0_0_1_n_n 1024 rfl rfl).symm k) = ix2 k n := funext fun a => Fin.ext (by
    match a with
    | ⟨0, _⟩ => exact (mm_h_c_rhs0 (ix2 p n) ((contrEquiv1 dot_S512x1024_S1024x1024_S512x1024_1_0_0_1_n_n 1024 rfl rfl).symm k)).trans hk
    | ⟨1, _⟩ => exact mm_h_c_rhs1 (ix2 p n) ((contrEquiv1 dot_S512x1024_S1024x1024_S512x1024_1_0_0_1_n_n 1024 rfl rfl).symm k))
  rw [el, er]

/-! ## The payloads at an index -/

/-- The stacked gates before the nonlinearity, at row p and column n: x's product plus h's product plus the bias.
    The shape casts are to the same shape and the narrowing of h to bf16 is the identity on extended reals. -/
theorem pay4_apply (x1 : FVec Ideal S512x192 .bf16) (x2 : FVec Ideal S512x1024 .f32) (x3 : FVec Ideal S192x2048 .bf16)
    (x4 : FVec Ideal S1024x2048 .bf16) (x5 : FVec Ideal S1x2048 .f32) (p : Fin 512) (n : Fin 2048) :
    k0_pay4 (F := Ideal) x1 x2 x3 x4 x5 (ix2 p n)
      = Cert.Gru.zrLin (fun k => x1 (ix2 p k)) (fun k => x2 (ix2 p k)) (fun k n => x3 (ix2 k n)) (fun k n => x4 (ix2 k n))
          (fun n => x5 (ix2 0 n)) n := by
  unfold k0_pay4 k0_pay2 k0_pay3 Cert.Gru.zrLin
  simp only [shapeCast_self]
  show (matmul dot_S512x192_S192x2048_S512x2048_1_0_0_1_n_n none x1 x3 (constant (F := Ideal) S512x2048 .f32 0x00000000#32) (ix2 p n)
      + matmul dot_S512x1024_S1024x2048_S512x2048_1_0_0_1_n_n none (truncf .bf16 x2 bitsLt_bf16_f32) x4 (constant (F := Ideal) S512x2048 .f32 0x00000000#32) (ix2 p n))
      + broadcastTo S512x2048 x5 broadcasts_S1x2048_S512x2048 (ix2 p n) = _
  rw [mm_x_zr_apply x1 x3 p n, mm_h_zr_apply (truncf .bf16 x2 bitsLt_bf16_f32) x4 p n,
    broadcastTo_1b_ab_apply x5 broadcasts_S1x2048_S512x2048 p n]
  rfl

/-- The update gate z at (p, j): the logistic function of column j of the stacked gates. -/
theorem pay5_apply (x1 : FVec Ideal S512x192 .bf16) (x2 : FVec Ideal S512x1024 .f32) (x3 : FVec Ideal S192x2048 .bf16)
    (x4 : FVec Ideal S1024x2048 .bf16) (x5 : FVec Ideal S1x2048 .f32) (p : Fin 512) (j : Fin 1024) :
    k0_pay5 (F := Ideal) x1 x2 x3 x4 x5 (ix2 p j)
      = Ideal.logistic (Cert.Gru.zrLin (fun k => x1 (ix2 p k)) (fun k => x2 (ix2 p k)) (fun k n => x3 (ix2 k n)) (fun k n => x4 (ix2 k n))
          (fun n => x5 (ix2 0 n)) (Cert.Gru.lo j)) := by
  unfold k0_pay5
  show Ideal.logistic (extractStridedSlice S512x1024 ![0, 0] (k0_pay4 (F := Ideal) x1 x2 x3 x4 x5) slices_S512x2048_o0_0_S512x1024 (ix2 p j)) = _
  exact congrArg Ideal.logistic ((slice2_axis1_apply 0 (k0_pay4 (F := Ideal) x1 x2 x3 x4 x5) slices_S512x2048_o0_0_S512x1024 p j (Cert.Gru.lo j)
    (Nat.zero_add j.val).symm).trans (pay4_apply x1 x2 x3 x4 x5 p (Cert.Gru.lo j)))

/-- The reset gate times the state, narrowed to bf16: what the candidate's h product contracts. -/
def rh (x1 : FVec Ideal S512x192 .bf16) (x2 : FVec Ideal S512x1024 .f32) (x3 : FVec Ideal S192x2048 .bf16)
    (x4 : FVec Ideal S1024x2048 .bf16) (x5 : FVec Ideal S1x2048 .f32) : FVec Ideal S512x1024 .bf16 :=
  truncf .bf16 (mulf (logistic (extractStridedSlice S512x1024 ![0, 1024] (k0_pay4 (F := Ideal) x1 x2 x3 x4 x5) slices_S512x2048_o0_1024_S512x1024)) x2) bitsLt_bf16_f32

/-- At (p, k): the logistic function of column 1024 + k of the stacked gates, times h at (p, k). -/
theorem rh_apply (x1 : FVec Ideal S512x192 .bf16) (x2 : FVec Ideal S512x1024 .f32) (x3 : FVec Ideal S192x2048 .bf16)
    (x4 : FVec Ideal S1024x2048 .bf16) (x5 : FVec Ideal S1x2048 .f32) (p : Fin 512) (k : Fin 1024) :
    rh x1 x2 x3 x4 x5 (ix2 p k)
      = Ideal.logistic (Cert.Gru.zrLin (fun k => x1 (ix2 p k)) (fun k => x2 (ix2 p k)) (fun k n => x3 (ix2 k n)) (fun k n => x4 (ix2 k n))
          (fun n => x5 (ix2 0 n)) (Cert.Gru.hi k)) * x2 (ix2 p k) := by
  unfold rh
  show Ideal.logistic (extractStridedSlice S512x1024 ![0, 1024] (k0_pay4 (F := Ideal) x1 x2 x3 x4 x5) slices_S512x2048_o0_1024_S512x1024 (ix2 p k)) * x2 (ix2 p k) = _
  exact congrArg (· * x2 (ix2 p k)) (congrArg Ideal.logistic ((slice2_axis1_apply 1024 (k0_pay4 (F := Ideal) x1 x2 x3 x4 x5) slices_S512x2048_o0_1024_S512x1024 p k (Cert.Gru.hi k)
    rfl).trans (pay4_apply x1 x2 x3 x4 x5 p (Cert.Gru.hi k))))

/-- (1 - z) * h at (p, j). -/
theorem pay6_apply (x1 : FVec Ideal S512x192 .bf16) (x2 : FVec Ideal S512x1024 .f32) (x3 : FVec Ideal S192x2048 .bf16)
    (x4 : FVec Ideal S1024x2048 .bf16) (x5 : FVec Ideal S1x2048 .f32) (p : Fin 512) (j : Fin 1024) :
    k0_pay6 (F := Ideal) x1 x2 x3 x4 x5 (ix2 p j)
      = (Cert.Gru.one32 - Ideal.logistic (Cert.Gru.zrLin (fun k => x1 (ix2 p k)) (fun k => x2 (ix2 p k)) (fun k n => x3 (ix2 k n)) (fun k n => x4 (ix2 k n))
          (fun n => x5 (ix2 0 n)) (Cert.Gru.lo j))) * x2 (ix2 p j) := by
  unfold k0_pay6 k0_pay3
  simp only [shapeCast_self]
  show (Ideal.ofBits .f32 0x3F800000#32 - k0_pay5 (F := Ideal) x1 x2 x3 x4 x5 (ix2 p j)) * x2 (ix2 p j) = _
  rw [pay5_apply x1 x2 x3 x4 x5 p j]

/-- z * tanh (x·Wxc + (r * h)·Whc + bc) at (p, j). -/
theorem pay7_apply (x1 : FVec Ideal S512x192 .bf16) (x2 : FVec Ideal S512x1024 .f32) (x3 : FVec Ideal S192x2048 .bf16)
    (x4 : FVec Ideal S1024x2048 .bf16) (x5 : FVec Ideal S1x2048 .f32)
    (x6 : FVec Ideal S192x1024 .bf16) (x7 : FVec Ideal S1024x1024 .bf16) (x8 : FVec Ideal S1x1024 .f32) (p : Fin 512) (j : Fin 1024) :
    k0_pay7 (F := Ideal) x1 x2 x3 x4 x5 x6 x7 x8 (ix2 p j)
      = Ideal.logistic (Cert.Gru.zrLin (fun k => x1 (ix2 p k)) (fun k => x2 (ix2 p k)) (fun k n => x3 (ix2 k n)) (fun k n => x4 (ix2 k n))
          (fun n => x5 (ix2 0 n)) (Cert.Gru.lo j))
        * Ideal.tanh (((∑ k : Fin 192, x1 (ix2 p k) * x6 (ix2 k j))
            + ∑ k : Fin 1024, (Ideal.logistic (Cert.Gru.zrLin (fun k => x1 (ix2 p k)) (fun k => x2 (ix2 p k)) (fun k n => x3 (ix2 k n)) (fun k n => x4 (ix2 k n))
          (fun n => x5 (ix2 0 n)) (Cert.Gru.hi k)) * x2 (ix2 p k)) * x7 (ix2 k j)) + x8 (ix2 0 j)) := by
  unfold k0_pay7 k0_pay2 k0_pay3
  simp only [shapeCast_self]
  show k0_pay5 (F := Ideal) x1 x2 x3 x4 x5 (ix2 p j)
      * Ideal.tanh ((matmul dot_S512x192_S192x1024_S512x1024_1_0_0_1_n_n none x1 x6 (constant (F := Ideal) S512x1024 .f32 0x00000000#32) (ix2 p j)
          + matmul dot_S512x1024_S1024x1024_S512x1024_1_0_0_1_n_n none (rh x1 x2 x3 x4 x5) x7 (constant (F := Ideal) S512x1024 .f32 0x00000000#32) (ix2 p j))
        + broadcastTo S512x1024 x8 broadcasts_S1x1024_S512x1024 (ix2 p j)) = _
  rw [pay5_apply x1 x2 x3 x4 x5 p j, mm_x_c_apply x1 x6 p j, mm_h_c_apply (rh x1 x2 x3 x4 x5) x7 p j,
    broadcastTo_1b_ab_apply x8 broadcasts_S1x1024_S512x1024 p j]
  simp only [rh_apply]

/-! ## The stored value at an index, and its row-locality -/

/-- Entry (p, j) of the value the body stores is the split-and-stacked cell applied to row p of x and of h. -/
theorem out0_apply (x1 : Vec Ideal S512x192 .bf16) (x2 : Vec Ideal S512x1024 .f32) (x3 : Vec Ideal S192x2048 .bf16)
    (x4 : Vec Ideal S1024x2048 .bf16) (x5 : Vec Ideal S1x2048 .f32) (x6 : Vec Ideal S192x1024 .bf16)
    (x7 : Vec Ideal S1024x1024 .bf16) (x8 : Vec Ideal S1x1024 .f32) (p : Fin 512) (j : Fin 1024) :
    out0 (F := Ideal) x1 x2 x3 x4 x5 x6 x7 x8 (ix2 p j)
      = Cert.Gru.rowSplit (fun k => x1 (ix2 p k)) (fun k => x2 (ix2 p k)) (fun k n => x3 (ix2 k n)) (fun k n => x4 (ix2 k n))
          (fun n => x5 (ix2 0 n)) (fun k n => x6 (ix2 k n)) (fun k n => x7 (ix2 k n)) (fun n => x8 (ix2 0 n)) j := by
  unfold out0 k0_pay1 Cert.Gru.rowSplit
  show k0_pay6 (F := Ideal) x1 x2 x3 x4 x5 (ix2 p j) + k0_pay7 (F := Ideal) x1 x2 x3 x4 x5 x6 x7 x8 (ix2 p j) = _
  rw [pay6_apply x1 x2 x3 x4 x5 p j, pay7_apply x1 x2 x3 x4 x5 x6 x7 x8 p j]

/-- Row p of the stored value reads only row p of x and of h. -/
theorem rowLocal_ideal : RowLocal Ideal := by
  intro x1 x1' x2 x2' x3 x4 x5 x6 x7 x8 p h1 h2 j
  rw [out0_apply x1 x2 x3 x4 x5 x6 x7 x8 p j, out0_apply x1' x2' x3 x4 x5 x6 x7 x8 p j]
  have e1 : (fun k : Fin 192 => x1 (ix2 p k)) = fun k : Fin 192 => x1' (ix2 p k) := funext h1
  have e2 : (fun k : Fin 1024 => x2 (ix2 p k)) = fun k : Fin 1024 => x2' (ix2 p k) := funext h2
  rw [e1, e2]

end Cert.KernelIdeal.Hand

end
-- ==== Proof.IdealHost.lean ====
/-
  The arrays the program prepares before its one pipelined region, read at an index.

  The eight arguments are the input x (64 × 325 rows of 3 × 64 entries), the previous state h (64 × 325 rows of 1024
  entries), and for each of the three gates a weight matrix with 1216 = 192 + 1024 rows and 1024 columns and a bias of
  1024 entries. Before the region the program
    · flattens x to 20800 rows of 192 entries and h to 20800 rows of 1024 entries — row r is row (r / 325, r % 325),
      and entry k of an x row is entry (k / 64, k % 64);
    · cuts every weight matrix into its first 192 rows (the x part) and its last 1024 rows (the h part);
    · sets the z gate's and the r gate's parts side by side, 2048 columns: z in columns 0..1023, r in columns
      1024..2047, and does the same with the two biases;
    · keeps the candidate gate's two parts and its bias as they are (the bias as a single row).
  Over the extended reals a change of float format is the identity, so each prepared array is, entry by entry, an
  entry of one argument: that is what the lemmas below say, in the vocabulary of the shared specification.
-/
import proofs.«143251_j19774029431558_2_alg».proof.Proof.Gen.KernelIdeal.Frame
import proofs.«143251_j19774029431558_2_alg».proof.Proof.Spec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Cert.Gru

/-! ## Index arithmetic of the layout operations, over arbitrary arrays -/

/-- The first 192 rows of a weight matrix, read at (k, j): the matrix at row k. -/
theorem slice_top (x : S1216x1024.Idx → EReal) (h : S1216x1024.Slices ![0, 0] S192x1024) (k : Fin 192) (j : Fin 1024) :
    extractStridedSlice S192x1024 ![0, 0] x h (ix2 k j) = mat x (inl k) j :=
  extractStridedSlice_apply ![0, 0] x h (ix2 k j) (ix2 (inl k) j) (fun a => match a with
    | ⟨0, _⟩ => by show k.val = 0 + k.val; omega
    | ⟨1, _⟩ => by show j.val = 0 + j.val; omega)

/-- The last 1024 rows of a weight matrix, read at (k, j): the matrix at row 192 + k. -/
theorem slice_bot (x : S1216x1024.Idx → EReal) (h : S1216x1024.Slices ![192, 0] S1024x1024) (k : Fin 1024) (j : Fin 1024) :
    extractStridedSlice S1024x1024 ![192, 0] x h (ix2 k j) = mat x (inr k) j :=
  extractStridedSlice_apply ![192, 0] x h (ix2 k j) (ix2 (inr k) j) (fun a => match a with
    | ⟨0, _⟩ => by show 192 + k.val = 192 + k.val; rfl
    | ⟨1, _⟩ => by show j.val = 0 + j.val; omega)

/-- Two blocks of 1024 columns side by side, read in the left block: the left block at the same place. -/
theorem cat2_lo {R : Nat} (x y : (⟨2, ![R, 1024]⟩ : Shape).Idx → EReal)
    (h : Shape.Concatenates [(⟨2, ![R, 1024]⟩ : Shape), ⟨2, ![R, 1024]⟩] ⟨2, ![R, 2048]⟩ 1) (k : Fin R) (j : Fin 1024) :
    concatenate (⟨2, ![R, 2048]⟩ : Shape) 1 [⟨⟨2, ![R, 1024]⟩, x⟩, ⟨⟨2, ![R, 1024]⟩, y⟩] h (ix2 k (lo j)) = x (ix2 k j) :=
  concatenate_pair_apply_left (1 : Fin 2) x y h (ix2 k (lo j)) rfl (ix2 k j) (fun b => match b with
    | ⟨0, _⟩ => rfl
    | ⟨1, _⟩ => rfl)

/-- Two blocks of 1024 columns side by side, read in the right block: the right block, 1024 columns to the left. -/
theorem cat2_hi {R : Nat} (x y : (⟨2, ![R, 1024]⟩ : Shape).Idx → EReal)
    (h : Shape.Concatenates [(⟨2, ![R, 1024]⟩ : Shape), ⟨2, ![R, 1024]⟩] ⟨2, ![R, 2048]⟩ 1) (k : Fin R) (j : Fin 1024) :
    concatenate (⟨2, ![R, 2048]⟩ : Shape) 1 [⟨⟨2, ![R, 1024]⟩, x⟩, ⟨⟨2, ![R, 1024]⟩, y⟩] h (ix2 k (hi j)) = y (ix2 k j) :=
  concatenate_pair_apply_right (1 : Fin 2) x y h (ix2 k (hi j)) rfl rfl (ix2 k j) (fun b => match b with
    | ⟨0, _⟩ => fun _ => rfl
    | ⟨1, _⟩ => fun hb => absurd rfl hb) (by show j.val + 1024 = 1024 + j.val; omega)

/-- Two biases of 1024 entries end to end, read in the first half: the first bias. -/
theorem cat1_lo (x y : S1024.Idx → EReal) (h : Shape.Concatenates [S1024, S1024] S2048 0) (j : Fin 1024) :
    concatenate S2048 0 [⟨S1024, x⟩, ⟨S1024, y⟩] h (ix1 (lo j)) = vec x j :=
  concatenate_pair_apply_left (0 : Fin 1) x y h (ix1 (lo j)) rfl (ix1 j) (fun b => match b with
    | ⟨0, _⟩ => rfl)

/-- Two biases of 1024 entries end to end, read in the second half: the second bias, 1024 entries earlier. -/
theorem cat1_hi (x y : S1024.Idx → EReal) (h : Shape.Concatenates [S1024, S1024] S2048 0) (j : Fin 1024) :
    concatenate S2048 0 [⟨S1024, x⟩, ⟨S1024, y⟩] h (ix1 (hi j)) = vec y j :=
  concatenate_pair_apply_right (0 : Fin 1) x y h (ix1 (hi j)) rfl rfl (ix1 j) (fun b => match b with
    | ⟨0, _⟩ => fun hb => absurd rfl hb) (by show j.val + 1024 = 1024 + j.val; omega)

/-- 64 × 325 rows of 1024 entries flattened to 20800 rows, read at (r, k): row (r / 325, r % 325), entry k. -/
theorem flat_h (x : S64x325x1024.Idx → EReal) (h : S64x325x1024.ShapeCasts S20800x1024) (r : Fin 20800) (k : Fin 1024) :
    shapeCast S20800x1024 x h (ix2 r k)
      = hrow x ⟨r.val / 325, by have := r.isLt; omega⟩ ⟨r.val % 325, by omega⟩ k :=
  shapeCast_apply x h (ix2 r k) (ix3 (⟨r.val / 325, by have := r.isLt; omega⟩ : Fin 64) (⟨r.val % 325, by omega⟩ : Fin 325) k) (by
    rw [Shape.rowMajor_val_three, Shape.rowMajor_val_two]
    show (r.val / 325 * 325 + r.val % 325) * 1024 + k.val = r.val * 1024 + k.val
    omega)

/-- 64 × 325 rows of 3 × 64 entries flattened to 20800 rows of 192, read at (r, k): row (r / 325, r % 325),
    entry (k / 64, k % 64). -/
theorem flat_x (x : S64x325x3x64.Idx → EReal) (h : S64x325x3x64.ShapeCasts S20800x192) (r : Fin 20800) (k : Fin 192) :
    shapeCast S20800x192 x h (ix2 r k)
      = xrow x ⟨r.val / 325, by have := r.isLt; omega⟩ ⟨r.val % 325, by omega⟩ k :=
  shapeCast_apply x h (ix2 r k) (ix4 (⟨r.val / 325, by have := r.isLt; omega⟩ : Fin 64) (⟨r.val % 325, by omega⟩ : Fin 325)
      (⟨k.val / 64, by have := k.isLt; omega⟩ : Fin 3) (⟨k.val % 64, by omega⟩ : Fin 64)) (by
    rw [Shape.rowMajor_val_four, Shape.rowMajor_val_two]
    show ((r.val / 325 * 325 + r.val % 325) * 3 + k.val / 64) * 64 + k.val % 64 = r.val * 192 + k.val
    omega)

/-! ## What each prepared array holds when the region is entered -/

variable (m : (ℓ : Loc nD τ sig) → Buf (Elt Ideal) ℓ) (c : Dev nD)

/-- The flattened input as a term over the first argument. -/
theorem e_x : (V m c main_v1 : S20800x192.Idx → EReal) =
    truncf .bf16 (shapeCast S20800x192 ((m ((c.tc : Thread nD τ).loc main_arg0)) : S64x325x3x64.Idx → EReal) shapeCasts_S64x325x3x64_S20800x192 : FVec Ideal S20800x192 .f32) bitsLt_bf16_f32 := by
  show StableHlo.after hostOps0 (fun b => m (c, b)) (Proc.devRef .tc main_v1) = _
  after_results
  rfl

/-- Row r of the flattened input is row (r / 325, r % 325) of the input. -/
theorem V_x (r : Fin 20800) (k : Fin 192) :
    (V m c main_v1 : S20800x192.Idx → EReal) (ix2 r k)
      = xrow (m ((c.tc : Thread nD τ).loc main_arg0)) ⟨r.val / 325, by have := r.isLt; omega⟩ ⟨r.val % 325, by omega⟩ k := by
  rw [e_x, truncf_apply]
  exact flat_x _ _ r k

/-- The flattened state as a term over the second argument. -/
theorem e_h : (V m c main_v2 : S20800x1024.Idx → EReal) =
    shapeCast S20800x1024 ((m ((c.tc : Thread nD τ).loc main_arg1)) : S64x325x1024.Idx → EReal) shapeCasts_S64x325x1024_S20800x1024 := by
  show StableHlo.after hostOps0 (fun b => m (c, b)) (Proc.devRef .tc main_v2) = _
  after_results
  rfl

/-- Row r of the flattened state is row (r / 325, r % 325) of the state. -/
theorem V_h (r : Fin 20800) (k : Fin 1024) :
    (V m c main_v2 : S20800x1024.Idx → EReal) (ix2 r k)
      = hrow (m ((c.tc : Thread nD τ).loc main_arg1)) ⟨r.val / 325, by have := r.isLt; omega⟩ ⟨r.val % 325, by omega⟩ k := by
  rw [e_h]
  exact flat_h _ _ r k

/-- The stacked x parts of the z and r gates' weights as a term over the arguments. -/
theorem e_wxzr : (V m c main_v12 : S192x2048.Idx → EReal) =
    truncf .bf16 (concatenate S192x2048 1
      [⟨S192x1024, extractStridedSlice S192x1024 ![0, 0] ((m ((c.tc : Thread nD τ).loc main_arg2)) : S1216x1024.Idx → EReal) slices_S1216x1024_S192x1024_0_0⟩,
       ⟨S192x1024, extractStridedSlice S192x1024 ![0, 0] ((m ((c.tc : Thread nD τ).loc main_arg4)) : S1216x1024.Idx → EReal) slices_S1216x1024_S192x1024_0_0⟩]
      concatenates_S192x1024_S192x1024_S192x2048_d1 : FVec Ideal S192x2048 .f32) bitsLt_bf16_f32 := by
  show StableHlo.after hostOps0 (fun b => m (c, b)) (Proc.devRef .tc main_v12) = _
  after_results

/-- The z half of the stacked x parts is the x part of the z gate's weights. -/
theorem V_wxzr_lo (k : Fin 192) (j : Fin 1024) :
    (V m c main_v12 : S192x2048.Idx → EReal) (ix2 k (lo j)) = mat (m ((c.tc : Thread nD τ).loc main_arg2)) (inl k) j := by
  rw [e_wxzr, truncf_apply]
  exact (cat2_lo (R := 192) _ _ _ k j).trans (slice_top _ _ k j)

/-- The r half of the stacked x parts is the x part of the r gate's weights. -/
theorem V_wxzr_hi (k : Fin 192) (j : Fin 1024) :
    (V m c main_v12 : S192x2048.Idx → EReal) (ix2 k (hi j)) = mat (m ((c.tc : Thread nD τ).loc main_arg4)) (inl k) j := by
  rw [e_wxzr, truncf_apply]
  exact (cat2_hi (R := 192) _ _ _ k j).trans (slice_top _ _ k j)

/-- The stacked h parts of the z and r gates' weights as a term over the arguments. -/
theorem e_whzr : (V m c main_v14 : S1024x2048.Idx → EReal) =
    truncf .bf16 (concatenate S1024x2048 1
      [⟨S1024x1024, extractStridedSlice S1024x1024 ![192, 0] ((m ((c.tc : Thread nD τ).loc main_arg2)) : S1216x1024.Idx → EReal) slices_S1216x1024_S1024x1024_192_0⟩,
       ⟨S1024x1024, extractStridedSlice S1024x1024 ![192, 0] ((m ((c.tc : Thread nD τ).loc main_arg4)) : S1216x1024.Idx → EReal) slices_S1216x1024_S1024x1024_192_0⟩]
      concatenates_S1024x1024_S1024x1024_S1024x2048_d1 : FVec Ideal S1024x2048 .f32) bitsLt_bf16_f32 := by
  show StableHlo.after hostOps0 (fun b => m (c, b)) (Proc.devRef .tc main_v14) = _
  after_results

/-- The z half of the stacked h parts is the h part of the z gate's weights. -/
theorem V_whzr_lo (k : Fin 1024) (j : Fin 1024) :
    (V m c main_v14 : S1024x2048.Idx → EReal) (ix2 k (lo j)) = mat (m ((c.tc : Thread nD τ).loc main_arg2)) (inr k) j := by
  rw [e_whzr, truncf_apply]
  exact (cat2_lo (R := 1024) _ _ _ k j).trans (slice_bot _ _ k j)

/-- The r half of the stacked h parts is the h part of the r gate's weights. -/
theorem V_whzr_hi (k : Fin 1024) (j : Fin 1024) :
    (V m c main_v14 : S1024x2048.Idx → EReal) (ix2 k (hi j)) = mat (m ((c.tc : Thread nD τ).loc main_arg4)) (inr k) j := by
  rw [e_whzr, truncf_apply]
  exact (cat2_hi (R := 1024) _ _ _ k j).trans (slice_bot _ _ k j)

/-- The stacked biases of the z and r gates, as a single row, as a term over the arguments. -/
theorem e_bzr : (V m c main_v16 : S1x2048.Idx → EReal) =
    shapeCast S1x2048 (concatenate S2048 0 [⟨S1024, ((m ((c.tc : Thread nD τ).loc main_arg3)) : S1024.Idx → EReal)⟩, ⟨S1024, ((m ((c.tc : Thread nD τ).loc main_arg5)) : S1024.Idx → EReal)⟩] concatenates_S1024_S1024_S2048_d0) shapeCasts_S2048_S1x2048 := by
  show StableHlo.after hostOps0 (fun b => m (c, b)) (Proc.devRef .tc main_v16) = _
  after_results
  rfl

/-- The z half of the stacked biases is the z gate's bias. -/
theorem V_bzr_lo (j : Fin 1024) :
    (V m c main_v16 : S1x2048.Idx → EReal) (ix2 (0 : Fin 1) (lo j)) = vec (m ((c.tc : Thread nD τ).loc main_arg3)) j := by
  rw [e_bzr, shapeCast_a_1a_apply]
  exact cat1_lo _ _ _ j

/-- The r half of the stacked biases is the r gate's bias. -/
theorem V_bzr_hi (j : Fin 1024) :
    (V m c main_v16 : S1x2048.Idx → EReal) (ix2 (0 : Fin 1) (hi j)) = vec (m ((c.tc : Thread nD τ).loc main_arg5)) j := by
  rw [e_bzr, shapeCast_a_1a_apply]
  exact cat1_hi _ _ _ j

/-- The x part of the candidate gate's weights as a term over the seventh argument. -/
theorem e_wxc : (V m c main_v8 : S192x1024.Idx → EReal) =
    truncf .bf16 (extractStridedSlice S192x1024 ![0, 0] ((m ((c.tc : Thread nD τ).loc main_arg6)) : S1216x1024.Idx → EReal) slices_S1216x1024_S192x1024_0_0 : FVec Ideal S192x1024 .f32) bitsLt_bf16_f32 := by
  show StableHlo.after hostOps0 (fun b => m (c, b)) (Proc.devRef .tc main_v8) = _
  after_results

/-- It is the first 192 rows of the candidate gate's weights. -/
theorem V_wxc (k : Fin 192) (j : Fin 1024) :
    (V m c main_v8 : S192x1024.Idx → EReal) (ix2 k j) = mat (m ((c.tc : Thread nD τ).loc main_arg6)) (inl k) j := by
  rw [e_wxc, truncf_apply]
  exact slice_top _ _ k j

/-- The h part of the candidate gate's weights as a term over the seventh argument. -/
theorem e_whc : (V m c main_v10 : S1024x1024.Idx → EReal) =
    truncf .bf16 (extractStridedSlice S1024x1024 ![192, 0] ((m ((c.tc : Thread nD τ).loc main_arg6)) : S1216x1024.Idx → EReal) slices_S1216x1024_S1024x1024_192_0 : FVec Ideal S1024x1024 .f32) bitsLt_bf16_f32 := by
  show StableHlo.after hostOps0 (fun b => m (c, b)) (Proc.devRef .tc main_v10) = _
  after_results

/-- It is the last 1024 rows of the candidate gate's weights. -/
theorem V_whc (k : Fin 1024) (j : Fin 1024) :
    (V m c main_v10 : S1024x1024.Idx → EReal) (ix2 k j) = mat (m ((c.tc : Thread nD τ).loc main_arg6)) (inr k) j := by
  rw [e_whc, truncf_apply]
  exact slice_bot _ _ k j

/-- The candidate gate's bias, as a single row, as a term over the eighth argument. -/
theorem e_bc : (V m c main_v17 : S1x1024.Idx → EReal) =
    shapeCast S1x1024 ((m ((c.tc : Thread nD τ).loc main_arg7)) : S1024.Idx → EReal) shapeCasts_S1024_S1x1024 := by
  show StableHlo.after hostOps0 (fun b => m (c, b)) (Proc.devRef .tc main_v17) = _
  after_results
  rfl

/-- It is the candidate gate's bias. -/
theorem V_bc (j : Fin 1024) :
    (V m c main_v17 : S1x1024.Idx → EReal) (ix2 (0 : Fin 1) j) = vec (m ((c.tc : Thread nD τ).loc main_arg7)) j := by
  rw [e_bc]
  exact shapeCast_a_1a_apply _ _ 0 j

end Cert.KernelIdeal.Hand

end
-- ==== Proof.IdealValue.lean ====
/-
  The idealized kernel's result, as one function of its arguments.

  Point t writes back, on the rows it moves, the cell row in the kernel's arrangement applied to rows 512·t + p of
  x and h as the region finds them and to the six resident operands; those rows together are all 20800, so the
  result array ends as that row function at every index. The host operations before the region make the staged arrays
  out of the arguments — x and h flattened to 20800 rows, the z and r gates' weights and biases cut into their x and h
  parts and stacked side by side, the candidate's cut — which are exactly the hypotheses of the law joining the
  kernel's arrangement to the reference's; and the last host operation folds the 20800 rows back to 64 × 325.
-/
import proofs.«143251_j19774029431558_2_alg».proof.Proof.IdealBlocks
import proofs.«143251_j19774029431558_2_alg».proof.Proof.IdealPayload
import proofs.«143251_j19774029431558_2_alg».proof.Proof.IdealHost

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)
open Cert.Gru

variable (m : (ℓ : Loc nD τ sig) → Buf (Elt Ideal) ℓ) (ρ : Dev nD → PrngReg)

/-- Equal rows, weights and columns give equal cell entries. -/
theorem rowSplit_congr {x x' : Fin 192 → EReal} {h h' : Fin 1024 → EReal} {A A' : Fin 192 → Fin 2048 → EReal}
    {B B' : Fin 1024 → Fin 2048 → EReal} {b b' : Fin 2048 → EReal} {C C' : Fin 192 → Fin 1024 → EReal}
    {D D' : Fin 1024 → Fin 1024 → EReal} {d d' : Fin 1024 → EReal} {j j' : Fin 1024}
    (e1 : x = x') (e2 : h = h') (e3 : A = A') (e4 : B = B') (e5 : b = b') (e6 : C = C') (e7 : D = D') (e8 : d = d') (e9 : j = j') :
    rowSplit x h A B b C D d j = rowSplit x' h' A' B' b' C' D' d' j' := by
  subst e1 e2 e3 e4 e5 e6 e7 e8 e9; rfl

/-! ## The staged arrays, by row and column -/

/-- Row r of x as staged; -/
def sx (c : Dev nD) (r : Fin 20800) : Fin 192 → EReal := fun k => (V m c main_v1 : S20800x192.Idx → EReal) (ix2 r k)
/-- row r of h; -/
def sh (c : Dev nD) (r : Fin 20800) : Fin 1024 → EReal := fun k => (V m c main_v2 : S20800x1024.Idx → EReal) (ix2 r k)
/-- the stacked z|r weights' x part, -/
def sWxzr (c : Dev nD) : Fin 192 → Fin 2048 → EReal := fun k n => (V m c main_v12 : S192x2048.Idx → EReal) (ix2 k n)
/-- their h part, -/
def sWhzr (c : Dev nD) : Fin 1024 → Fin 2048 → EReal := fun k n => (V m c main_v14 : S1024x2048.Idx → EReal) (ix2 k n)
/-- the stacked z|r bias, -/
def sbzr (c : Dev nD) : Fin 2048 → EReal := fun n => (V m c main_v16 : S1x2048.Idx → EReal) (ix2 (0 : Fin 1) n)
/-- the candidate's weights' x part, -/
def sWxc (c : Dev nD) : Fin 192 → Fin 1024 → EReal := fun k n => (V m c main_v8 : S192x1024.Idx → EReal) (ix2 k n)
/-- their h part, -/
def sWhc (c : Dev nD) : Fin 1024 → Fin 1024 → EReal := fun k n => (V m c main_v10 : S1024x1024.Idx → EReal) (ix2 k n)
/-- and the candidate's bias. -/
def sbc (c : Dev nD) : Fin 1024 → EReal := fun n => (V m c main_v17 : S1x1024.Idx → EReal) (ix2 (0 : Fin 1) n)

/-- The result array of the region as one function of the arrays it stages: entry (r, j) is the cell row of row r. -/
def K8 (c : Dev nD) : S20800x1024.Idx → EReal := fun i =>
  rowSplit (sx m c (i 0)) (sh m c (i 0)) (sWxzr m c) (sWhzr m c) (sbzr m c) (sWxc m c) (sWhc m c) (sbc m c) (i 1)

/-- What point t writes back is block t of that function. -/
theorem flushed8_eq (c : Dev nD) (t : Fin cfg0.N) :
    (dats m 0 c).flushed 8 t = ((cfg0.win 8).blk t).view.read (Elt Ideal) (K8 m c) := by
  show (cfg0.win 8).cut (grid0.coords t) ((dats m 0 c).after 8 t) = _
  rw [after0_8]
  funext y
  obtain ⟨e0, e1⟩ := emb8_val t y
  obtain ⟨p, j, hpj⟩ : ∃ (p : Fin 512) (j : Fin 1024), win0_8.xinj (grid0.coords t) y = ix2 p j :=
    ⟨(win0_8.xinj (grid0.coords t) y) 0, (win0_8.xinj (grid0.coords t) y) 1, eq_ix2 _⟩
  have hp0 : (y 0).val = p.val := congrArg (fun f : S512x1024.Idx => (f 0).val) hpj
  have hj1 : (y 1).val = j.val := congrArg (fun f : S512x1024.Idx => (f 1).val) hpj
  have hp : p.val < win0_8.xsize (grid0.coords t) 0 := hp0 ▸ (y 0).isLt
  show out0 (xblk m c t) (hblk m c t) (iblk m c 2 t) (iblk m c 3 t) (iblk m c 4 t) (iblk m c 5 t) (iblk m c 6 t) (iblk m c 7 t)
      (win0_8.xinj (grid0.coords t) y) = K8 m c (((cfg0.win 8).blk t).view.emb y)
  rw [hpj, out0_apply (xblk m c t) (hblk m c t) (iblk m c 2 t) (iblk m c 3 t) (iblk m c 4 t) (iblk m c 5 t) (iblk m c 6 t) (iblk m c 7 t) p j]
  show _ = rowSplit (sx m c ((((cfg0.win 8).blk t).view.emb y) 0)) (sh m c ((((cfg0.win 8).blk t).view.emb y) 0)) (sWxzr m c) (sWhzr m c)
    (sbzr m c) (sWxc m c) (sWhc m c) (sbc m c) ((((cfg0.win 8).blk t).view.emb y) 1)
  refine rowSplit_congr (funext fun k => ?_) (funext fun k => ?_) (funext fun k => funext fun n => ?_)
    (funext fun k => funext fun n => ?_) (funext fun n => ?_) (funext fun k => funext fun n => ?_)
    (funext fun k => funext fun n => ?_) (funext fun n => ?_) (Fin.ext ?_)
  · exact xblk_apply m c t p k hp ((((cfg0.win 8).blk t).view.emb y) 0) (by rw [e0, hp0])
  · exact hblk_apply m c t p k hp ((((cfg0.win 8).blk t).view.emb y) 0) (by rw [e0, hp0])
  · exact iblk2_apply m c t k n
  · exact iblk3_apply m c t k n
  · exact iblk4_apply m c t 0 n
  · exact iblk5_apply m c t k n
  · exact iblk6_apply m c t k n
  · exact iblk7_apply m c t 0 n
  · rw [e1, hj1]

/-- The result array after the run. -/
theorem final8 (c : Dev nD) : (dats m 0 c).arrAt 8 cfg0.N = K8 m c :=
  (dats m 0 c).arrAt_eq_of_cover 8 (K8 m c) (fun t _ => flushed8_eq m c t) covered8

/-- Entry (b·325 + n, j) of it is the specification at (b, n, j): the staged arrays are the arguments' rows and the
    gates' weights cut and stacked, and the kernel's arrangement of the cell is the reference's. -/
theorem K8_eq_G (c : Dev nD) (b : Fin 64) (n : Fin 325) (j : Fin 1024) (r : Fin 20800) (hr : r.val = b.val * 325 + n.val) :
    K8 m c (ix2 r j) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b n j) := by
  have hb : (⟨r.val / 325, by have := r.isLt; omega⟩ : Fin 64) = b := Fin.ext (by show r.val / 325 = b.val; have := n.isLt; omega)
  have hn : (⟨r.val % 325, by omega⟩ : Fin 325) = n := Fin.ext (by show r.val % 325 = n.val; have := n.isLt; omega)
  have hx : sx m c r = xrow (m ((c.tc : Thread nD τ).loc main_arg0)) b n := funext fun k => by
    show (V m c main_v1 : S20800x192.Idx → EReal) (ix2 r k) = _
    rw [V_x m c r k, hb, hn]
  have hh : sh m c r = hrow (m ((c.tc : Thread nD τ).loc main_arg1)) b n := funext fun k => by
    show (V m c main_v2 : S20800x1024.Idx → EReal) (ix2 r k) = _
    rw [V_h m c r k, hb, hn]
  have hbc : sbc m c = vec (m ((c.tc : Thread nD τ).loc main_arg7)) := funext fun j => V_bc m c j
  show rowSplit (sx m c r) (sh m c r) (sWxzr m c) (sWhzr m c) (sbzr m c) (sWxc m c) (sWhc m c) (sbc m c) j
    = rowCat (xrow (m ((c.tc : Thread nD τ).loc main_arg0)) b n) (hrow (m ((c.tc : Thread nD τ).loc main_arg1)) b n) (mat (m ((c.tc : Thread nD τ).loc main_arg2))) (mat (m ((c.tc : Thread nD τ).loc main_arg4))) (mat (m ((c.tc : Thread nD τ).loc main_arg6))) (vec (m ((c.tc : Thread nD τ).loc main_arg3))) (vec (m ((c.tc : Thread nD τ).loc main_arg5))) (vec (m ((c.tc : Thread nD τ).loc main_arg7))) j
  rw [hx, hh, hbc]
  exact (rowCat_eq_rowSplit (xrow (m ((c.tc : Thread nD τ).loc main_arg0)) b n) (hrow (m ((c.tc : Thread nD τ).loc main_arg1)) b n) (mat (m ((c.tc : Thread nD τ).loc main_arg2))) (mat (m ((c.tc : Thread nD τ).loc main_arg4))) (mat (m ((c.tc : Thread nD τ).loc main_arg6))) (vec (m ((c.tc : Thread nD τ).loc main_arg3))) (vec (m ((c.tc : Thread nD τ).loc main_arg5))) (vec (m ((c.tc : Thread nD τ).loc main_arg7)))
    (sWxzr m c) (sWhzr m c) (sbzr m c) (sWxc m c) (sWhc m c)
    (V_wxzr_lo m c) (V_wxzr_hi m c) (V_whzr_lo m c) (V_whzr_hi m c) (V_bzr_lo m c) (V_bzr_hi m c) (V_wxc m c) (V_whc m c) j).symm

/-- The reshape of the result array to [64, 325, 1024] is the specification. -/
theorem result_eq (c : Dev nD) :
    shapeCast S64x325x1024 ((dats m 0 c).arrAt 8 cfg0.N) shapeCasts_S20800x1024_S64x325x1024
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [final8]
  funext i
  obtain ⟨b, n, j, rfl⟩ : ∃ (b : Fin 64) (n : Fin 325) (j : Fin 1024), i = ix3 b n j := ⟨i 0, i 1, i 2, eq_ix3 i⟩
  have hlt : b.val * 325 + n.val < 20800 := by have := b.isLt; have := n.isLt; omega
  rw [shapeCast_apply (K8 m c) shapeCasts_S20800x1024_S64x325x1024 (ix3 b n j) (ix2 (⟨b.val * 325 + n.val, hlt⟩ : Fin 20800) j)
    (by rw [Shape.rowMajor_val_two, Shape.rowMajor_val_three]; rfl)]
  exact K8_eq_G m c b n j ⟨b.val * 325 + n.val, hlt⟩ rfl

/-- THE VALUE RUN: every weakly fair execution of the idealized kernel program terminates without a fault, its result
    the specification of its arguments, its arguments unchanged. -/
theorem value_run : θ_run defs (onTc (τ := τ) (main (F := Ideal))) ⟨m, fun _ => 0, ρ⟩ (fun r => ∀ c : Dev nD,
      r.2.mem ((c.tc : Thread nD τ).loc main_v19) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_v19 (Pipeline.mem_restRefs_of main_v19 (by decide) (by decide))).trans (tail_v19 m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ rowLocal_ideal)

end Cert.KernelIdeal.Hand

end
-- ==== Proof.RefValue.lean ====
/-
  The reference's result, read index by index: entry (b, n, j) of its run's term is the cell row in the reference's
  arrangement applied to row (b, n) of the arguments.
-/
import proofs.«143251_j19774029431558_2_alg».proof.Proof.Gen.ReferenceIdeal.Read
import proofs.«143251_j19774029431558_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Gru

/-! ## Index identities -/

/-- The flattened row index (b, n, k) reads the unflattened input at (b, n, k / 64, k % 64). -/
theorem idx_v0_ix3 (b : Fin 64) (n : Fin 325) (k : Fin 192) :
    idx_main_v0 (ix3 b n k) = ix4 b n ⟨k.val / 64, by have := k.isLt; omega⟩ ⟨k.val % 64, by omega⟩ := by
  have hb := b.isLt; have hn := n.isLt; have hk := k.isLt
  funext a
  match a with
  | ⟨0, _⟩ => exact Fin.ext (show ((b.val * 325 + n.val) * 192 + k.val) / 62400 = b.val by omega)
  | ⟨1, _⟩ => exact Fin.ext (show ((b.val * 325 + n.val) * 192 + k.val) / 192 % 325 = n.val by omega)
  | ⟨2, _⟩ => exact Fin.ext (show ((b.val * 325 + n.val) * 192 + k.val) / 64 % 3 = k.val / 64 by omega)
  | ⟨3, _⟩ => exact Fin.ext (show ((b.val * 325 + n.val) * 192 + k.val) % 64 = k.val % 64 by omega)

/-- The reshaped input at (b, n, k) is entry k of the flattened row (b, n). -/
theorem v0_at (x0 : (⟨S64x325x3x64, .f32⟩ : BufTy).Contents (Elt Ideal)) (b : Fin 64) (n : Fin 325) (k : Fin 192) :
    val_main_v0 (F := Ideal) x0 (ix3 b n k) = xrow x0 b n k := by
  rw [val_main_v0_apply, idx_v0_ix3]
  rfl

/-! ## The concatenation along the last axis -/

/-- The two-piece concatenation along the last axis at (b, n, c): the first piece's row (b, n) for c below 192, the
    second piece's row (b, n) at c - 192 otherwise. -/
theorem concat_at (u : S64x325x192.Idx → EReal) (y : S64x325x1024.Idx → EReal) (b : Fin 64) (n : Fin 325) (c : Fin 1216) :
    concatenate S64x325x1216 2 [⟨S64x325x192, u⟩, ⟨S64x325x1024, y⟩] concatenates_S64x325x192_S64x325x1024_S64x325x1216_d2
        (ix3 b n c)
      = cat (fun k => u (ix3 b n k)) (fun k => y (ix3 b n k)) c := by
  unfold cat
  by_cases hc : c.val < 192
  · rw [dif_pos hc]
    exact concatenate_pair_apply_left (2 : Fin S64x325x1216.rank) u y
      concatenates_S64x325x192_S64x325x1024_S64x325x1216_d2 (ix3 b n c) rfl (ix3 b n ⟨c.val, hc⟩)
      (fun a => match a with | ⟨0, _⟩ => rfl | ⟨1, _⟩ => rfl | ⟨2, _⟩ => rfl)
  · rw [dif_neg hc]
    exact concatenate_pair_apply_right (2 : Fin S64x325x1216.rank) u y
      concatenates_S64x325x192_S64x325x1024_S64x325x1216_d2 (ix3 b n c) rfl rfl
      (ix3 b n ⟨c.val - 192, by have := c.isLt; omega⟩)
      (fun a ha => match a, ha with
        | ⟨0, _⟩, _ => rfl
        | ⟨1, _⟩, _ => rfl
        | ⟨2, _⟩, ha => absurd rfl ha)
      (show c.val - 192 + 192 = c.val by omega)

/-! ## The contractions' operand indices and the broadcast biases -/

theorem lidx_v2_ix3 (b : Fin 64) (n : Fin 325) (j : Fin 1024) (k : Fin 1216) :
    lidx_main_v2 (ix3 b n j) k = ix3 b n k := by
  funext a; match a with | ⟨0, _⟩ => rfl | ⟨1, _⟩ => rfl | ⟨2, _⟩ => rfl
theorem ridx_v2_ix3 (b : Fin 64) (n : Fin 325) (j : Fin 1024) (k : Fin 1216) :
    ridx_main_v2 (ix3 b n j) k = ix2 k j := by
  funext a; match a with | ⟨0, _⟩ => rfl | ⟨1, _⟩ => rfl
theorem lidx_v12_ix3 (b : Fin 64) (n : Fin 325) (j : Fin 1024) (k : Fin 1216) :
    lidx_main_v12 (ix3 b n j) k = ix3 b n k := by
  funext a; match a with | ⟨0, _⟩ => rfl | ⟨1, _⟩ => rfl | ⟨2, _⟩ => rfl
theorem ridx_v12_ix3 (b : Fin 64) (n : Fin 325) (j : Fin 1024) (k : Fin 1216) :
    ridx_main_v12 (ix3 b n j) k = ix2 k j := by
  funext a; match a with | ⟨0, _⟩ => rfl | ⟨1, _⟩ => rfl
theorem lidx_v24_ix3 (b : Fin 64) (n : Fin 325) (j : Fin 1024) (k : Fin 1216) :
    lidx_main_v24 (ix3 b n j) k = ix3 b n k := by
  funext a; match a with | ⟨0, _⟩ => rfl | ⟨1, _⟩ => rfl | ⟨2, _⟩ => rfl
theorem ridx_v24_ix3 (b : Fin 64) (n : Fin 325) (j : Fin 1024) (k : Fin 1216) :
    ridx_main_v24 (ix3 b n j) k = ix2 k j := by
  funext a; match a with | ⟨0, _⟩ => rfl | ⟨1, _⟩ => rfl

/-- The z gate's bias, broadcast over the rows, at (b, n, j) is entry j of the bias. -/
theorem v4_at (x3 : (⟨S1024, .f32⟩ : BufTy).Contents (Elt Ideal)) (b : Fin 64) (n : Fin 325) (j : Fin 1024) :
    val_main_v4 (F := Ideal) x3 (ix3 b n j) = vec x3 j := by
  rw [val_main_v4_apply, val_main_v3_apply]
  unfold vec
  refine congrArg x3 (funext fun a => ?_)
  match a with | ⟨0, _⟩ => rfl
/-- The r gate's bias likewise. -/
theorem v14_at (x5 : (⟨S1024, .f32⟩ : BufTy).Contents (Elt Ideal)) (b : Fin 64) (n : Fin 325) (j : Fin 1024) :
    val_main_v14 (F := Ideal) x5 (ix3 b n j) = vec x5 j := by
  rw [val_main_v14_apply, val_main_v13_apply]
  unfold vec
  refine congrArg x5 (funext fun a => ?_)
  match a with | ⟨0, _⟩ => rfl
/-- The candidate's bias likewise. -/
theorem v26_at (x7 : (⟨S1024, .f32⟩ : BufTy).Contents (Elt Ideal)) (b : Fin 64) (n : Fin 325) (j : Fin 1024) :
    val_main_v26 (F := Ideal) x7 (ix3 b n j) = vec x7 j := by
  rw [val_main_v26_apply, val_main_v25_apply]
  unfold vec
  refine congrArg x7 (funext fun a => ?_)
  match a with | ⟨0, _⟩ => rfl

/-! ## The concatenated row -/

/-- The concatenation [x_flat | h_prev] at (b, n, c) is entry c of the concatenated row (b, n). -/
theorem v1_at (x0 : (⟨S64x325x3x64, .f32⟩ : BufTy).Contents (Elt Ideal)) (x1 : (⟨S64x325x1024, .f32⟩ : BufTy).Contents (Elt Ideal))
    (b : Fin 64) (n : Fin 325) (c : Fin 1216) :
    val_main_v1 (F := Ideal) x0 x1 (ix3 b n c) = cat (xrow x0 b n) (hrow x1 b n) c := by
  unfold val_main_v1
  refine (concat_at (val_main_v0 (F := Ideal) x0) x1 b n c).trans ?_
  have e : (fun k => val_main_v0 (F := Ideal) x0 (ix3 b n k)) = xrow x0 b n := funext (v0_at x0 b n)
  rw [e]
  rfl

/-! ## The gates before their nonlinearities -/

/-- The z gate before the logistic function. -/
theorem v5_at (x0 : (⟨S64x325x3x64, .f32⟩ : BufTy).Contents (Elt Ideal)) (x1 : (⟨S64x325x1024, .f32⟩ : BufTy).Contents (Elt Ideal))
    (x2 : (⟨S1216x1024, .f32⟩ : BufTy).Contents (Elt Ideal)) (x3 : (⟨S1024, .f32⟩ : BufTy).Contents (Elt Ideal))
    (b : Fin 64) (n : Fin 325) (j : Fin 1024) :
    val_main_v5 (F := Ideal) x0 x1 x2 x3 (ix3 b n j)
      = catLin (cat (xrow x0 b n) (hrow x1 b n)) (mat x2) (vec x3) j := by
  rw [val_main_v5_apply, val_main_v2_apply, v4_at]
  unfold catLin
  refine congrArg (fun s : EReal => s + vec x3 j) (Finset.sum_congr rfl fun k _ => ?_)
  rw [lidx_v2_ix3, ridx_v2_ix3, v1_at]
  rfl

/-- The r gate before the logistic function. -/
theorem v15_at (x0 : (⟨S64x325x3x64, .f32⟩ : BufTy).Contents (Elt Ideal)) (x1 : (⟨S64x325x1024, .f32⟩ : BufTy).Contents (Elt Ideal))
    (x4 : (⟨S1216x1024, .f32⟩ : BufTy).Contents (Elt Ideal)) (x5 : (⟨S1024, .f32⟩ : BufTy).Contents (Elt Ideal))
    (b : Fin 64) (n : Fin 325) (j : Fin 1024) :
    val_main_v15 (F := Ideal) x0 x1 x4 x5 (ix3 b n j)
      = catLin (cat (xrow x0 b n) (hrow x1 b n)) (mat x4) (vec x5) j := by
  rw [val_main_v15_apply, val_main_v12_apply, v14_at]
  unfold catLin
  refine congrArg (fun s : EReal => s + vec x5 j) (Finset.sum_congr rfl fun k _ => ?_)
  rw [lidx_v12_ix3, ridx_v12_ix3, v1_at]
  rfl

/-! ## The gates -/

/-- The z gate at an index is the host's expansion of the logistic function at its pre-activation. -/
theorem v11_sig (x0 : (⟨S64x325x3x64, .f32⟩ : BufTy).Contents (Elt Ideal)) (x1 : (⟨S64x325x1024, .f32⟩ : BufTy).Contents (Elt Ideal))
    (x2 : (⟨S1216x1024, .f32⟩ : BufTy).Contents (Elt Ideal)) (x3 : (⟨S1024, .f32⟩ : BufTy).Contents (Elt Ideal)) (i : S64x325x1024.Idx) :
    val_main_v11 (F := Ideal) x0 x1 x2 x3 i = Cert.Gru.sig (val_main_v5 (F := Ideal) x0 x1 x2 x3 i) := by
  rw [val_main_v11_apply, val_main_v10_apply, val_main_cst_0_apply, val_main_v9_apply, val_main_v8_apply,
    val_main_cst_apply, val_main_v7_apply, val_main_v6_apply]
  rfl

/-- The z gate at (b, n, j). -/
theorem v11_at (x0 : (⟨S64x325x3x64, .f32⟩ : BufTy).Contents (Elt Ideal)) (x1 : (⟨S64x325x1024, .f32⟩ : BufTy).Contents (Elt Ideal))
    (x2 : (⟨S1216x1024, .f32⟩ : BufTy).Contents (Elt Ideal)) (x3 : (⟨S1024, .f32⟩ : BufTy).Contents (Elt Ideal)) (b : Fin 64) (n : Fin 325) (j : Fin 1024) :
    val_main_v11 (F := Ideal) x0 x1 x2 x3 (ix3 b n j)
      = Cert.Gru.sig (catLin (cat (xrow x0 b n) (hrow x1 b n)) (mat x2) (vec x3) j) := by
  rw [v11_sig, v5_at]

/-- The r gate at an index is the host's expansion of the logistic function at its pre-activation. -/
theorem v21_sig (x0 : (⟨S64x325x3x64, .f32⟩ : BufTy).Contents (Elt Ideal)) (x1 : (⟨S64x325x1024, .f32⟩ : BufTy).Contents (Elt Ideal))
    (x4 : (⟨S1216x1024, .f32⟩ : BufTy).Contents (Elt Ideal)) (x5 : (⟨S1024, .f32⟩ : BufTy).Contents (Elt Ideal)) (i : S64x325x1024.Idx) :
    val_main_v21 (F := Ideal) x0 x1 x4 x5 i = Cert.Gru.sig (val_main_v15 (F := Ideal) x0 x1 x4 x5 i) := by
  rw [val_main_v21_apply, val_main_v20_apply, val_main_cst_2_apply, val_main_v19_apply, val_main_v18_apply,
    val_main_cst_1_apply, val_main_v17_apply, val_main_v16_apply]
  rfl

/-- The reset state r * h_prev at (b, n, k). -/
theorem v22_at (x0 : (⟨S64x325x3x64, .f32⟩ : BufTy).Contents (Elt Ideal)) (x1 : (⟨S64x325x1024, .f32⟩ : BufTy).Contents (Elt Ideal))
    (x4 : (⟨S1216x1024, .f32⟩ : BufTy).Contents (Elt Ideal)) (x5 : (⟨S1024, .f32⟩ : BufTy).Contents (Elt Ideal)) (b : Fin 64) (n : Fin 325) (k : Fin 1024) :
    val_main_v22 (F := Ideal) x0 x1 x4 x5 (ix3 b n k)
      = Cert.Gru.sig (catLin (cat (xrow x0 b n) (hrow x1 b n)) (mat x4) (vec x5) k) * hrow x1 b n k := by
  rw [val_main_v22_apply, v21_sig, v15_at]
  rfl

/-- The concatenation [x_flat | r * h_prev] at (b, n, c). -/
theorem v23_at (x0 : (⟨S64x325x3x64, .f32⟩ : BufTy).Contents (Elt Ideal)) (x1 : (⟨S64x325x1024, .f32⟩ : BufTy).Contents (Elt Ideal))
    (x4 : (⟨S1216x1024, .f32⟩ : BufTy).Contents (Elt Ideal)) (x5 : (⟨S1024, .f32⟩ : BufTy).Contents (Elt Ideal)) (b : Fin 64) (n : Fin 325) (c : Fin 1216) :
    val_main_v23 (F := Ideal) x0 x1 x4 x5 (ix3 b n c)
      = cat (xrow x0 b n) (fun k => Cert.Gru.sig (catLin (cat (xrow x0 b n) (hrow x1 b n)) (mat x4) (vec x5) k) * hrow x1 b n k) c := by
  unfold val_main_v23
  refine (concat_at (val_main_v0 (F := Ideal) x0) (val_main_v22 (F := Ideal) x0 x1 x4 x5) b n c).trans ?_
  have e : (fun k => val_main_v0 (F := Ideal) x0 (ix3 b n k)) = xrow x0 b n := funext (v0_at x0 b n)
  have e2 : (fun k => val_main_v22 (F := Ideal) x0 x1 x4 x5 (ix3 b n k))
      = fun k => Cert.Gru.sig (catLin (cat (xrow x0 b n) (hrow x1 b n)) (mat x4) (vec x5) k) * hrow x1 b n k :=
    funext (v22_at x0 x1 x4 x5 b n)
  rw [e, e2]

/-- The candidate before the hyperbolic tangent. -/
theorem v27_at (x0 : (⟨S64x325x3x64, .f32⟩ : BufTy).Contents (Elt Ideal)) (x1 : (⟨S64x325x1024, .f32⟩ : BufTy).Contents (Elt Ideal))
    (x4 : (⟨S1216x1024, .f32⟩ : BufTy).Contents (Elt Ideal)) (x5 : (⟨S1024, .f32⟩ : BufTy).Contents (Elt Ideal)) (x6 : (⟨S1216x1024, .f32⟩ : BufTy).Contents (Elt Ideal)) (x7 : (⟨S1024, .f32⟩ : BufTy).Contents (Elt Ideal)) (b : Fin 64) (n : Fin 325) (j : Fin 1024) :
    val_main_v27 (F := Ideal) x0 x1 x4 x5 x6 x7 (ix3 b n j)
      = catLin (cat (xrow x0 b n) (fun k => Cert.Gru.sig (catLin (cat (xrow x0 b n) (hrow x1 b n)) (mat x4) (vec x5) k) * hrow x1 b n k))
          (mat x6) (vec x7) j := by
  rw [val_main_v27_apply, val_main_v24_apply, v26_at]
  generalize hR : (fun k => Cert.Gru.sig (catLin (cat (xrow x0 b n) (hrow x1 b n)) (mat x4) (vec x5) k) * hrow x1 b n k) = R
  unfold catLin
  refine congrArg (fun s : EReal => s + vec x7 j) (Finset.sum_congr rfl fun k _ => ?_)
  rw [lidx_v24_ix3, ridx_v24_ix3, v23_at, hR]
  rfl

/-! ## The result -/

/-- The reference's result is the specification: entry (b, n, j) is the cell row in the reference's arrangement
    applied to row (b, n) of the arguments. -/
theorem ref_eq (x0 : (⟨S64x325x3x64, .f32⟩ : BufTy).Contents (Elt Ideal)) (x1 : (⟨S64x325x1024, .f32⟩ : BufTy).Contents (Elt Ideal))
    (x2 : (⟨S1216x1024, .f32⟩ : BufTy).Contents (Elt Ideal)) (x3 : (⟨S1024, .f32⟩ : BufTy).Contents (Elt Ideal)) (x4 : (⟨S1216x1024, .f32⟩ : BufTy).Contents (Elt Ideal)) (x5 : (⟨S1024, .f32⟩ : BufTy).Contents (Elt Ideal)) (x6 : (⟨S1216x1024, .f32⟩ : BufTy).Contents (Elt Ideal)) (x7 : (⟨S1024, .f32⟩ : BufTy).Contents (Elt Ideal)) :
    Cert.ReferenceIdeal.Read.val_main_v33 (F := Ideal) x0 x1 x2 x3 x4 x5 x6 x7 = Cert.Gru.G x0 x1 x2 x3 x4 x5 x6 x7 := by
  funext i
  obtain ⟨b, n, j, rfl⟩ : ∃ b n j, i = ix3 b n j := ⟨i 0, i 1, i 2, eq_ix3 i⟩
  rw [val_main_v33_apply, val_main_v31_apply, val_main_v32_apply, val_main_v30_apply, val_main_v28_apply,
    val_main_v29_apply, val_main_cst_3_apply, v11_at, v27_at]
  rfl

end Cert.ReferenceIdeal.RefValue

end
-- ==== Proof.lean ====
/-
  A fused gated recurrent cell as one Pallas kernel, against its jnp reference, over the extended reals.

  Both programs take an input diffused_x [64, 325, 3, 64], a state h_prev [64, 325, 1024] and, for each of the three
  gates, a weight matrix [1216, 1024] and a bias [1024]; with x the input's rows flattened to 192 entries,
      z = σ([x|h]·Wz + bz),   r = σ([x|h]·Wr + br),   c = tanh([x | r*h]·Wc + bc),   result = (1 - z)*h + z*c.
  The reference contracts the concatenated 1216-entry row. The kernel flattens the 64 × 325 rows to 20800, cuts every
  weight matrix into its x part (rows 0..191) and its h part (rows 192..1215), stacks the z and r gates side by side,
  and walks the rows in 41 blocks of 512 — the last block overhanging the array by 192 rows, which are neither read
  into a named value nor written back. At the extended reals a change of float format is the identity, the kernel's
  logistic operation is 1 / (1 + exp (-y)) as the host spells it, and a sum over 192 + 1024 indices is the sum of its
  two parts: the two results are one function of the arguments (Proof/Spec.lean), with no use of the inputs' finiteness.

  The five conjuncts: the kernel program at machine words runs and leaves its arguments unchanged (nothing is said of
  its result there: the matrix unit's product is a function of its whole operands, the unnamed tail of the last block
  included); the idealized kernel program runs, leaves its arguments unchanged and ends with the specification of
  them (each row of the body's value reads only that row of x and h, so the tail does not reach a row that is written
  back); the reference runs, likewise; the idealization rewrote nothing; and the two results agree.
-/
import proofs.«143251_j19774029431558_2_alg».proof.Defs
import proofs.«143251_j19774029431558_2_alg».proof.Proof.Gen.Kernel
import proofs.«143251_j19774029431558_2_alg».proof.Proof.Gen.KernelIdeal
import proofs.«143251_j19774029431558_2_alg».proof.Proof.Gen.ReferenceIdeal
import proofs.«143251_j19774029431558_2_alg».proof.Proof.Gen.Pre_finite_inputs
import proofs.«143251_j19774029431558_2_alg».proof.Proof.BitsRun
import proofs.«143251_j19774029431558_2_alg».proof.Proof.IdealValue
import proofs.«143251_j19774029431558_2_alg».proof.Proof.RefValue
import Idealize.ShloMosaic.Adequacy
import Idealize.ShloMosaic.Init

noncomputable section

namespace Cert.Proof

open Idealize.ShloMosaic Idealize.SL.Sem

/-- The kernel program at machine words runs and keeps its arguments. -/
theorem frame_kernel : Cert.frame_Kernel := fun m ρ _ => Cert.Kernel.Hand.frame (F := Bits) m ρ

/-- The idealized kernel program runs and keeps its arguments. -/
theorem frame_kernelIdeal : Cert.frame_KernelIdeal := fun m ρ _ =>
  Cert.KernelIdeal.Hand.frame (F := Ideal) m ρ Cert.KernelIdeal.Hand.rowLocal_ideal

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the specification of the arguments. -/
theorem algebraic : Cert.algebraic_KernelIdeal_ReferenceIdeal := by
  intro m ρ m' ρ' _ hagree
  refine ⟨fun c => Cert.Gru.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_eq,
    (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
